-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x16 : Shape := ⟨2, ![500000, 16]⟩
abbrev S2x5000000 : Shape := ⟨2, ![2, 5000000]⟩
abbrev S8x16 : Shape := ⟨2, ![8, 16]⟩
abbrev S8 : Shape := ⟨1, ![8]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S500000x16 .f32) (main_arg1 : IVec S2x5000000 32) (main_arg2 : FVec F S8x16 .f32) (main_arg3 : FVec F S8 .f32) : IVec S_ 1 :=
  let main_v0 : FVec F S500000x16 .f32 := Host.absf main_arg0
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  let main_v4 : FVec F S8x16 .f32 := Host.absf main_arg2
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S500000x16 : Shape := ⟨2, ![500000, 16]⟩
abbrev S2x5000000 : Shape := ⟨2, ![2, 5000000]⟩
abbrev S8x16 : Shape := ⟨2, ![8, 16]⟩
abbrev S8 : Shape := ⟨1, ![8]⟩
abbrev S1x5000000 : Shape := ⟨2, ![1, 5000000]⟩
abbrev S5000000 : Shape := ⟨1, ![5000000]⟩
abbrev S500000 : Shape := ⟨1, ![500000]⟩
abbrev S5500000 : Shape := ⟨1, ![5500000]⟩
abbrev S500000x8 : Shape := ⟨2, ![500000, 8]⟩
abbrev S16384x16 : Shape := ⟨2, ![16384, 16]⟩
abbrev S16384x8 : Shape := ⟨2, ![16384, 8]⟩
abbrev S_ : Shape := ⟨0, ![]⟩
abbrev S5500000x1 : Shape := ⟨2, ![5500000, 1]⟩
abbrev S5500000x8 : Shape := ⟨2, ![5500000, 8]⟩
abbrev S1x8 : Shape := ⟨2, ![1, 8]⟩

abbrev nBuf : Space → Nat
  | .hbm => 63
  | .vmem => 5
  | .smem => 0
  | _ => 0

abbrev bufTy : (tb : Table) → Fin (tcTables nBuf tb) → BufTy
  | .hbm, ⟨0, _⟩ => ⟨S500000x16, .f32⟩
  | .hbm, ⟨1, _⟩ => ⟨S2x5000000, .i32⟩
  | .hbm, ⟨2, _⟩ => ⟨S8x16, .f32⟩
  | .hbm, ⟨3, _⟩ => ⟨S8, .f32⟩
  | .hbm, ⟨4, _⟩ => ⟨S1x5000000, .i32⟩
  | .hbm, ⟨5, _⟩ => ⟨S5000000, .i32⟩
  | .hbm, ⟨6, _⟩ => ⟨S1x5000000, .i32⟩
  | .hbm, ⟨7, _⟩ => ⟨S5000000, .i32⟩
  | .hbm, ⟨8, _⟩ => ⟨S500000, .i32⟩
  | .hbm, ⟨9, _⟩ => ⟨S5500000, .i32⟩
  | .hbm, ⟨10, _⟩ => ⟨S5500000, .i32⟩
  | .hbm, ⟨11, _⟩ => ⟨S500000x8, .f32⟩
  | .hbm, ⟨12, _⟩ => ⟨S_, .f32⟩
  | .hbm, ⟨13, _⟩ => ⟨S5500000, .f32⟩
  | .hbm, ⟨14, _⟩ => ⟨S_, .f32⟩
  | .hbm, ⟨15, _⟩ => ⟨S500000, .f32⟩
  | .hbm, ⟨16, _⟩ => ⟨S5500000x1, .i32⟩
  | .hbm, ⟨17, _⟩ => ⟨S500000, .f32⟩
  | .hbm, ⟨18, _⟩ => ⟨S_, .f32⟩
  | .hbm, ⟨19, _⟩ => ⟨S500000, .f32⟩
  | .hbm, ⟨20, _⟩ => ⟨S500000, .i1⟩
  | .hbm, ⟨21, _⟩ => ⟨S500000, .f32⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S_, .i32⟩
  | .hbm, ⟨26, _⟩ => ⟨S5500000, .i32⟩
  | .hbm, ⟨27, _⟩ => ⟨S5500000, .i1⟩
  | .hbm, ⟨28, _⟩ => ⟨S_, .i32⟩
  | .hbm, ⟨29, _⟩ => ⟨S5500000, .i32⟩
  | .hbm, ⟨30, _⟩ => ⟨S5500000, .i32⟩
  | .hbm, ⟨31, _⟩ => ⟨S5500000, .i32⟩
  | .hbm, ⟨32, _⟩ => ⟨S5500000x1, .i32⟩
  | .hbm, ⟨33, _⟩ => ⟨S5500000, .f32⟩
  | .hbm, ⟨34, _⟩ => ⟨S_, .i32⟩
  | .hbm, ⟨35, _⟩ => ⟨S5500000, .i32⟩
  | .hbm, ⟨36, _⟩ => ⟨S5500000, .i1⟩
  | .hbm, ⟨37, _⟩ => ⟨S_, .i32⟩
  | .hbm, ⟨38, _⟩ => ⟨S5500000, .i32⟩
  | .hbm, ⟨39, _⟩ => ⟨S5500000, .i32⟩
  | .hbm, ⟨40, _⟩ => ⟨S5500000, .i32⟩
  | .hbm, ⟨41, _⟩ => ⟨S5500000x1, .i32⟩
  | .hbm, ⟨42, _⟩ => ⟨S5500000, .f32⟩
  | .hbm, ⟨43, _⟩ => ⟨S5500000, .f32⟩
  | .hbm, ⟨44, _⟩ => ⟨S5500000x1, .f32⟩
  | .hbm, ⟨45, _⟩ => ⟨S_, .i32⟩
  | .hbm, ⟨46, _⟩ => ⟨S5500000, .i32⟩
  | .hbm, ⟨47, _⟩ => ⟨S5500000, .i1⟩
  | .hbm, ⟨48, _⟩ => ⟨S_, .i32⟩
  | .hbm, ⟨49, _⟩ => ⟨S5500000, .i32⟩
  | .hbm, ⟨50, _⟩ => ⟨S5500000, .i32⟩
  | .hbm, ⟨51, _⟩ => ⟨S5500000, .i32⟩
  | .hbm, ⟨52, _⟩ => ⟨S5500000x1, .i32⟩
  | .hbm, ⟨53, _⟩ => ⟨S5500000x8, .f32⟩
  | .hbm, ⟨54, _⟩ => ⟨S5500000x8, .f32⟩
  | .hbm, ⟨55, _⟩ => ⟨S5500000x8, .f32⟩
  | .hbm, ⟨56, _⟩ => ⟨S_, .f32⟩
  | .hbm, ⟨57, _⟩ => ⟨S500000x8, .f32⟩
  | .hbm, ⟨58, _⟩ => ⟨S5500000x1, .i32⟩
  | .hbm, ⟨59, _⟩ => ⟨S500000x8, .f32⟩
  | .hbm, ⟨60, _⟩ => ⟨S1x8, .f32⟩
  | .hbm, ⟨61, _⟩ => ⟨S500000x8, .f32⟩
  | .hbm, ⟨62, _⟩ => ⟨S500000x8, .f32⟩
  | .local _ .vmem, ⟨0, _⟩ => ⟨S16384x16, .f32⟩
  | .local _ .vmem, ⟨1, _⟩ => ⟨S16384x16, .f32⟩
  | .local _ .vmem, ⟨2, _⟩ => ⟨S8x16, .f32⟩
  | .local _ .vmem, ⟨3, _⟩ => ⟨S16384x8, .f32⟩
  | .local _ .vmem, ⟨4, _⟩ => ⟨S16384x8, .f32⟩
  | _, _ => ⟨S500000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S500000_S5500000_d0 : Shape.Concatenates [S5000000, S500000] S5500000 0
  inb_S16384x16_S16384x16_0_0 : ∀ a, (![0, 0] : Fin 2 → Nat) a + S16384x16.size a ≤ S16384x16.size a
  h_S16384x16 : 0 < S16384x16.numel
  bitsLt_bf16_f32 : FTy.bits .bf16 < FTy.bits .f32
  inb_S8x16_S8x16_0_0 : ∀ a, (![0, 0] : Fin 2 → Nat) a + S8x16.size a ≤ S8x16.size a
  h_S8x16 : 0 < S8x16.numel
  inb_S16384x8_S16384x8_0_0 : ∀ a, (![0, 0] : Fin 2 → Nat) a + S16384x8.size a ≤ S16384x8.size a
  h_S16384x8 : 0 < S16384x8.numel
  bcast_S_S5500000 : S_.BroadcastsInDim S5500000 (![] : Fin 0 → Fin S5500000.rank)
  bcast_S_S500000 : S_.BroadcastsInDim S500000 (![] : Fin 0 → Fin S500000.rank)
  bcast_S5500000_S5500000x1_0 : S5500000.BroadcastsInDim S5500000x1 (![0] : Fin 1 → Fin S5500000x1.rank)
  bcast_S5500000x1_S5500000x8_0_1 : S5500000x1.BroadcastsInDim S5500000x8 (![0, 1] : Fin 2 → Fin S5500000x8.rank)
  bcast_S_S500000x8 : S_.BroadcastsInDim S500000x8 (![] : Fin 0 → Fin S500000x8.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  dot_S16384x16_S8x16_S16384x8_1_1_0_0_n_n_wf : DotDims.WF S16384x16 S8x16 S16384x8 [1] [1] [0] [0] [] []
  scatter_S500000_S5500000x1_S5500000_n_0_0_1_wf : ScatterDims.WF S500000 S5500000x1 S5500000 [] [0] [0] 1
  gather_S500000_S5500000x1_S5500000_n_0_n_n_0_1_1_wf : GatherDims.WF S500000 S5500000x1 S5500000 [] [0] [] [0] [] 1 ![1]
  gather_S500000x8_S5500000x1_S5500000x8_1_0_n_n_0_1_18_wf : GatherDims.WF S500000x8 S5500000x1 S5500000x8 [1] [0] [] [0] [] 1 ![1, 8]
  scatter_S500000x8_S5500000x1_S5500000x8_1_0_0_1_wf : ScatterDims.WF S500000x8 S5500000x1 S5500000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x16.size a < S500000x16.size a
  hwx0_0 : ∀ i : grid0.Coords, EltTy.bits .f32 = 32 ∨ (Rect.unit (s := S500000x16) (fun a => cc0_transform_0 i a * S16384x16.size a) (fun a => (Pipeline.Clip.of (cc0_transform_0 i a) (S16384x16.size a) (S500000x16.size a)).extent (S16384x16.size a)) fun a => Pipeline.Clip.inb (Pipeline.Clip.ok_of (hstart0_0 i a))).WholeWords (EltTy.packing .f32)
  hwxs0_0 : ∀ i : grid0.Coords, EltTy.bits .f32 = 32 ∨ (Rect.unit (s := S16384x16) (fun _ => 0) (fun a => (Pipeline.Clip.of (cc0_transform_0 i a) (S16384x16.size a) (S500000x16.size a)).extent (S16384x16.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S8x16.size a
  hwx0_1 : ∀ i : grid0.Coords, EltTy.bits .f32 = 32 ∨ (Rect.block (s := S8x16) S8x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16384x8.size a < S500000x8.size a
  hwx0_2 : ∀ i : grid0.Coords, EltTy.bits .f32 = 32 ∨ (Rect.unit (s := S500000x8) (fun a => cc0_transform_2 i a * S16384x8.size a) (fun a => (Pipeline.Clip.of (cc0_transform_2 i a) (S16384x8.size a) (S500000x8.size a)).extent (S16384x8.size a)) fun a => Pipeline.Clip.inb (Pipeline.Clip.ok_of (hstart0_2 i a))).WholeWords (EltTy.packing .f32)
  hwxs0_2 : ∀ i : grid0.Coords, EltTy.bits .f32 = 32 ∨ (Rect.unit (s := S16384x8) (fun _ => 0) (fun a => (Pipeline.Clip.of (cc0_transform_2 i a) (S16384x8.size a) (S500000x8.size a)).extent (S16384x8.size a)) fun a => (Nat.zero_add _).trans_le (Pipeline.Clip.extent_le (Pipeline.Clip.ok_of (hstart0_2 i a)))).WholeWords (EltTy.packing .f32)

variable [Facts₀]

def dot_S16384x16_S8x16_S16384x8_1_1_0_0_n_n : DotDims S16384x16 S8x16 S16384x8 where
  lhsContracting := [1]
  rhsContracting := [1]
  lhsNonContracting := [0]
  rhsNonContracting := [0]
  lhsBatch := []
  rhsBatch := []
  wf := dot_S16384x16_S8x16_S16384x8_1_1_0_0_n_n_wf
def scatter_S500000_S5500000x1_S5500000_n_0_0_1 : ScatterDims S500000 S5500000x1 S5500000 where
  updateWindowDims := []
  insertedWindowDims := [0]
  scatterDimsToOperandDims := [0]
  indexVectorDim := 1
  wf := scatter_S500000_S5500000x1_S5500000_n_0_0_1_wf
def gather_S500000_S5500000x1_S5500000_n_0_n_n_0_1_1 : GatherDims S500000 S5500000x1 S5500000 where
  offsetDims := []
  collapsedSliceDims := [0]
  operandBatchingDims := []
  startIndicesBatchingDims := []
  startIndexMap := [0]
  indexVectorDim := 1
  sliceSizes := ![1]
  wf := gather_S500000_S5500000x1_S5500000_n_0_n_n_0_1_1_wf
def gather_S500000x8_S5500000x1_S5500000x8_1_0_n_n_0_1_18 : GatherDims S500000x8 S5500000x1 S5500000x8 where
  offsetDims := [1]
  collapsedSliceDims := [0]
  operandBatchingDims := []
  startIndicesBatchingDims := []
  startIndexMap := [0]
  indexVectorDim := 1
  sliceSizes := ![1, 8]
  wf := gather_S500000x8_S5500000x1_S5500000x8_1_0_n_n_0_1_18_wf
def scatter_S500000x8_S5500000x1_S5500000x8_1_0_0_1 : ScatterDims S500000x8 S5500000x1 S5500000x8 where
  updateWindowDims := [1]
  insertedWindowDims := [0]
  scatterDimsToOperandDims := [0]
  indexVectorDim := 1
  wf := scatter_S500000x8_S5500000x1_S5500000x8_1_0_0_1_wf

abbrev win0_0 : Pipeline.Window sig grid0 :=
  Pipeline.Window.ofSpecClip (Memref.whole main_arg0) S16384x16.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S8x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v7) S16384x8.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x16 : Shape := ⟨2, ![500000, 16]⟩
abbrev S2x5000000 : Shape := ⟨2, ![2, 5000000]⟩
abbrev S8x16 : Shape := ⟨2, ![8, 16]⟩
abbrev S8 : Shape := ⟨1, ![8]⟩
abbrev S500000 : Shape := ⟨1, ![500000]⟩
abbrev S1x5000000 : Shape := ⟨2, ![1, 5000000]⟩
abbrev S5000000 : Shape := ⟨1, ![5000000]⟩
abbrev S5500000 : Shape := ⟨1, ![5500000]⟩
abbrev S_ : Shape := ⟨0, ![]⟩
abbrev S5500000x1 : Shape := ⟨2, ![5500000, 1]⟩
abbrev S16x8 : Shape := ⟨2, ![16, 8]⟩
abbrev S500000x8 : Shape := ⟨2, ![500000, 8]⟩
abbrev S5500000x8 : Shape := ⟨2, ![5500000, 8]⟩
abbrev S1x8 : Shape := ⟨2, ![1, 8]⟩

abbrev nBuf : Space → Nat
  | .hbm => 64
  | .vmem => 0
  | .smem => 0
  | _ => 0

abbrev bufTy : (tb : Table) → Fin (tcTables nBuf tb) → BufTy
  | .hbm, ⟨0, _⟩ => ⟨S500000x16, .f32⟩
  | .hbm, ⟨1, _⟩ => ⟨S2x5000000, .i32⟩
  | .hbm, ⟨2, _⟩ => ⟨S8x16, .f32⟩
  | .hbm, ⟨3, _⟩ => ⟨S8, .f32⟩
  | .hbm, ⟨4, _⟩ => ⟨S500000, .i32⟩
  | .hbm, ⟨5, _⟩ => ⟨S1x5000000, .i32⟩
  | .hbm, ⟨6, _⟩ => ⟨S5000000, .i32⟩
  | .hbm, ⟨7, _⟩ => ⟨S5500000, .i32⟩
  | .hbm, ⟨8, _⟩ => ⟨S1x5000000, .i32⟩
  | .hbm, ⟨9, _⟩ => ⟨S5000000, .i32⟩
  | .hbm, ⟨10, _⟩ => ⟨S5500000, .i32⟩
  | .hbm, ⟨11, _⟩ => ⟨S_, .f32⟩
  | .hbm, ⟨12, _⟩ => ⟨S5500000, .f32⟩
  | .hbm, ⟨13, _⟩ => ⟨S_, .f32⟩
  | .hbm, ⟨14, _⟩ => ⟨S500000, .f32⟩
  | .hbm, ⟨15, _⟩ => ⟨S5500000x1, .i32⟩
  | .hbm, ⟨16, _⟩ => ⟨S500000, .f32⟩
  | .hbm, ⟨17, _⟩ => ⟨S_, .f32⟩
  | .hbm, ⟨18, _⟩ => ⟨S500000, .f32⟩
  | .hbm, ⟨19, _⟩ => ⟨S500000, .i1⟩
  | .hbm, ⟨20, _⟩ => ⟨S500000, .f32⟩
  | .hbm, ⟨21, _⟩ => ⟨S_, .f32⟩
  | .hbm, ⟨22, _⟩ => ⟨S500000, .f32⟩
  | .hbm, ⟨23, _⟩ => ⟨S500000, .f32⟩
  | .hbm, ⟨24, _⟩ => ⟨S_, .i32⟩
  | .hbm, ⟨25, _⟩ => ⟨S5500000, .i32⟩
  | .hbm, ⟨26, _⟩ => ⟨S5500000, .i1⟩
  | .hbm, ⟨27, _⟩ => ⟨S_, .i32⟩
  | .hbm, ⟨28, _⟩ => ⟨S5500000, .i32⟩
  | .hbm, ⟨29, _⟩ => ⟨S5500000, .i32⟩
  | .hbm, ⟨30, _⟩ => ⟨S5500000, .i32⟩
  | .hbm, ⟨31, _⟩ => ⟨S5500000x1, .i32⟩
  | .hbm, ⟨32, _⟩ => ⟨S5500000, .f32⟩
  | .hbm, ⟨33, _⟩ => ⟨S_, .i32⟩
  | .hbm, ⟨34, _⟩ => ⟨S5500000, .i32⟩
  | .hbm, ⟨35, _⟩ => ⟨S5500000, .i1⟩
  | .hbm, ⟨36, _⟩ => ⟨S_, .i32⟩
  | .hbm, ⟨37, _⟩ => ⟨S5500000, .i32⟩
  | .hbm, ⟨38, _⟩ => ⟨S5500000, .i32⟩
  | .hbm, ⟨39, _⟩ => ⟨S5500000, .i32⟩
  | .hbm, ⟨40, _⟩ => ⟨S5500000x1, .i32⟩
  | .hbm, ⟨41, _⟩ => ⟨S5500000, .f32⟩
  | .hbm, ⟨42, _⟩ => ⟨S5500000, .f32⟩
  | .hbm, ⟨43, _⟩ => ⟨S16x8, .f32⟩
  | .hbm, ⟨44, _⟩ => ⟨S500000x8, .f32⟩
  | .hbm, ⟨45, _⟩ => ⟨S5500000x1, .f32⟩
  | .hbm, ⟨46, _⟩ => ⟨S_, .i32⟩
  | .hbm, ⟨47, _⟩ => ⟨S5500000, .i32⟩
  | .hbm, ⟨48, _⟩ => ⟨S5500000, .i1⟩
  | .hbm, ⟨49, _⟩ => ⟨S_, .i32⟩
  | .hbm, ⟨50, _⟩ => ⟨S5500000, .i32⟩
  | .hbm, ⟨51, _⟩ => ⟨S5500000, .i32⟩
  | .hbm, ⟨52, _⟩ => ⟨S5500000, .i32⟩
  | .hbm, ⟨53, _⟩ => ⟨S5500000x1, .i32⟩
  | .hbm, ⟨54, _⟩ => ⟨S5500000x8, .f32⟩
  | .hbm, ⟨55, _⟩ => ⟨S5500000x8, .f32⟩
  | .hbm, ⟨56, _⟩ => ⟨S5500000x8, .f32⟩
  | .hbm, ⟨57, _⟩ => ⟨S_, .f32⟩
  | .hbm, ⟨58, _⟩ => ⟨S500000x8, .f32⟩
  | .hbm, ⟨59, _⟩ => ⟨S5500000x1, .i32⟩
  | .hbm, ⟨60, _⟩ => ⟨S500000x8, .f32⟩
  | .hbm, ⟨61, _⟩ => ⟨S1x8, .f32⟩
  | .hbm, ⟨62, _⟩ => ⟨S500000x8, .f32⟩
  | .hbm, ⟨63, _⟩ => ⟨S500000x8, .f32⟩
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  concatenates_S5000000_S500000_S5500000_d0 : Shape.Concatenates [S5000000, S500000] S5500000 0
  slices_S2x5000000_S1x5000000_1_0 : S2x5000000.Slices ![1, 0] S1x5000000
  bcast_S_S5500000 : S_.BroadcastsInDim S5500000 (![] : Fin 0 → Fin S5500000.rank)
  bcast_S_S500000 : S_.BroadcastsInDim S500000 (![] : Fin 0 → Fin S500000.rank)
  bcast_S5500000_S5500000x1_0 : S5500000.BroadcastsInDim S5500000x1 (![0] : Fin 1 → Fin S5500000x1.rank)
  transposes_S8x16_S16x8_1_0 : S8x16.Transposes [1, 0] S16x8
  bcast_S5500000x1_S5500000x8_0_1 : S5500000x1.BroadcastsInDim S5500000x8 (![0, 1] : Fin 2 → Fin S5500000x8.rank)
  bcast_S_S500000x8 : S_.BroadcastsInDim S500000x8 (![] : Fin 0 → Fin S500000x8.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  scatter_S500000_S5500000x1_S5500000_n_0_0_1_wf : ScatterDims.WF S500000 S5500000x1 S5500000 [] [0] [0] 1
  gather_S500000_S5500000x1_S5500000_n_0_n_n_0_1_1_wf : GatherDims.WF S500000 S5500000x1 S5500000 [] [0] [] [0] [] 1 ![1]
  dot_S500000x16_S16x8_S500000x8_1_0_0_1_n_n_wf : DotDims.WF S500000x16 S16x8 S500000x8 [1] [0] [0] [1] [] []
  gather_S500000x8_S5500000x1_S5500000x8_1_0_n_n_0_1_18_wf : GatherDims.WF S500000x8 S5500000x1 S5500000x8 [1] [0] [] [0] [] 1 ![1, 8]
  scatter_S500000x8_S5500000x1_S5500000x8_1_0_0_1_wf : ScatterDims.WF S500000x8 S5500000x1 S5500000x8 [1] [0] [0] 1

variable [Facts₀]

def scatter_S500000_S5500000x1_S5500000_n_0_0_1 : ScatterDims S500000 S5500000x1 S5500000 where
  updateWindowDims := []
  insertedWindowDims := [0]
  scatterDimsToOperandDims := [0]
  indexVectorDim := 1
  wf := scatter_S500000_S5500000x1_S5500000_n_0_0_1_wf
def gather_S500000_S5500000x1_S5500000_n_0_n_n_0_1_1 : GatherDims S500000 S5500000x1 S5500000 where
  offsetDims := []
  collapsedSliceDims := [0]
  operandBatchingDims := []
  startIndicesBatchingDims := []
  startIndexMap := [0]
  indexVectorDim := 1
  sliceSizes := ![1]
  wf := gather_S500000_S5500000x1_S5500000_n_0_n_n_0_1_1_wf
def dot_S500000x16_S16x8_S500000x8_1_0_0_1_n_n : DotDims S500000x16 S16x8 S500000x8 where
  lhsContracting := [1]
  rhsContracting := [0]
  lhsNonContracting := [0]
  rhsNonContracting := [1]
  lhsBatch := []
  rhsBatch := []
  wf := dot_S500000x16_S16x8_S500000x8_1_0_0_1_n_n_wf
def gather_S500000x8_S5500000x1_S5500000x8_1_0_n_n_0_1_18 : GatherDims S500000x8 S5500000x1 S5500000x8 where
  offsetDims := [1]
  collapsedSliceDims := [0]
  operandBatchingDims := []
  startIndicesBatchingDims := []
  startIndexMap := [0]
  indexVectorDim := 1
  sliceSizes := ![1, 8]
  wf := gather_S500000x8_S5500000x1_S5500000x8_1_0_n_n_0_1_18_wf
def scatter_S500000x8_S5500000x1_S5500000x8_1_0_0_1 : ScatterDims S500000x8 S5500000x1 S5500000x8 where
  updateWindowDims := [1]
  insertedWindowDims := [0]
  scatterDimsToOperandDims := [0]
  indexVectorDim := 1
  wf := scatter_S500000x8_S5500000x1_S5500000x8_1_0_0_1_wf

class Facts : Prop extends Facts₀ where

variable [Facts]
-- ==== Proof.KFrame.lean ====
/-
  The frame of the message-passing program around its one pallas_call: @main terminates, faults nowhere, and its four
  argument arrays end holding what they held at launch.

  The pallas_call computes h = x · Wᵀ in 31 blocks of 16384 rows; 500000 rows are not a multiple of 16384, so the last
  block of x (and of the result) overhangs its array by 7904 rows.  The fetch of that block lands the rows inside the
  array in the leading part of the staging buffer; the rest of the buffer holds words that are no function of the array.
  The body multiplies the WHOLE staging buffer on the matrix unit, and the product of a matrix is not known here to be
  row-wise (the matrix product is an opaque operation of the float interface), so the rows of the result's staging buffer
  cannot be named from the array's rows, not even the rows inside the array.  The frame claim reads nothing of the result:
  so the result window is FORGOTTEN — its staging buffer is handed to the body at some contents and taken back at some
  contents, and its array is said to hold, at the end, its entry contents overwritten block by block by anything.  What is
  kept exactly: the staging buffer of x still holds, on the rows inside the array, the block of x (the body only loads
  it), the staging buffer of W still holds W, and the region invariant passes through unread.  From the run: x and W are
  inputs of the pipeline, never written back, so they end as the region found them, which is as launched since no host
  line before the region writes them; the edge-index array and the bias bypass the region, and no host line after the
  region writes them, so they too end as launched.
-/
import proofs.«129181_j16166256902666_2_alg».proof.Proof.Gen.Kernel.Frame
import proofs.«129181_j16166256902666_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

/-- The three whole-buffer rectangles the body reads and writes. -/
abbrev rX : Rect S16384x16 := Rect.unit (s := S16384x16) ![0, 0] S16384x16.size inb_S16384x16_S16384x16_0_0
abbrev rW : Rect S8x16 := Rect.unit (s := S8x16) ![0, 0] S8x16.size inb_S8x16_S8x16_0_0
abbrev rO : Rect S16384x8 := Rect.unit (s := S16384x8) ![0, 0] S16384x8.size inb_S16384x8_S16384x8_0_0

/-- What the result buffer holds after the body, from what the two input buffers hold: its one store, of the product. -/
def out2 (x0 : Vec F S16384x16 .f32) (x1 : Vec F S8x16 .f32) : Vec F S16384x8 .f32 :=
  View.canon [⟨rO, k0_pay1 (View.ld x0 rX) (View.ld x1 rW)⟩]

/-- The one store covers the result buffer. -/
theorem cover2 (p0 : Vec F S16384x8 .f32) (y : S16384x8.Idx) :
    ∃ pc ∈ ([⟨rO, p0⟩] : List (View.Piece (Elt F) S16384x8 .f32)), y ∈ pc.1.set :=
  View.cover_of_tiled [⟨rO, p0⟩] S16384x8.size (by rfl) y

set_option maxHeartbeats 1000000 in
/-- The body on whole staging memrefs, the inputs' at contents `x0`, `x1` and the result's at anything: it runs to the
    continuation with the inputs' as they were and the result's at `out2 x0 x1` (two whole loads, the product of the two
    rounded operands into a zero accumulator, a dead load of the result block, one whole store). -/
theorem sound_kernel (c : Dev nD) (E : Set ℕ) (i : grid0.Coords)
    (arg1 : Memref sig .tc .vmem S16384x16 .f32) (harg1 : arg1.IsWhole)
    (arg2 : Memref sig .tc .vmem S8x16 .f32) (harg2 : arg2.IsWhole)
    (arg3 : Memref sig .tc .vmem S16384x8 .f32) (harg3 : arg3.IsWhole)
    (x0 : Vec F S16384x16 .f32) (x1 : Vec F S8x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0_linear_kernel i arg1 harg1 arg2 harg2 arg3 harg3) K := by
  simp only [cc0_linear_kernel_eq_skeleton]; unfold cc0_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

variable (m : (ℓ : Loc nD τ sig) → Buf (Elt F) ℓ) (ρ : Dev nD → PrngReg)

/-! ## The pipeline's proof data -/

/-- The window this certificate FORGETS: the result's (window 2).  Nothing the frame claim says reads what the kernel
    leaves there. -/
def forgets0 : Fin 3 → Bool := fun w => w.val == 2

/-- The proof data of the one pipeline on core `c`: the arrays as the region finds them; after the body at point `t`
    the staging buffer of x at its block of x on the rows inside the array (past the array's end a filler nothing reads:
    only the rows the transfers move are ever stated), the staging buffer of W at W, the result's unnamed; the invariant
    the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, h⟩ => Pipeline.Dat.unnamed (cfg := cfg0) ⟨2, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the two input windows' buffers. -/
theorem after0_0 (c : Dev nD) (t : Fin cfg0.N) :
    (dats m 0 c).after 0 t = win0_0.fill (grid0.coords t) (fun _ => Scalar.ofBits .f32 0#32) (iblk m c 0 t) := by
  dsimp only [dats]
theorem after0_1 (c : Dev nD) (t : Fin cfg0.N) : (dats m 0 c).after 1 t = iblk m c 1 t := by dsimp only [dats]

/-- The staging buffer of x is fetched at every point: the body finds the block of x on the rows inside the array and,
    past the array's end, whatever the overwrite before the fetch left (`d`). -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The staging buffer of W holds W at every point, fetched there (the first) or not. -/
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`: the invariant, what the core owes, the two input buffers at what they
    hold, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- What it returns: the staging buffer of x stated on the rows its transfers move only, that of W exactly, the result's
    at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ (∃ X, owns (c : Thread nD τ) (st0_2 t) fullShare X))

/-- The body at any point: the body's triple at what the input buffers hold; it leaves them as they were, and on the rows
    inside the array the buffer of x holds the block of x whatever filled it out; the invariant and what the core owes
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show (cfg0.win 0).cut (cfg0.grid.coords t) (win0_0.fill (grid0.coords t) (fun _ => Scalar.ofBits .f32 0#32) (iblk m c 0 t))
      = iblk m c 0 t from win0_0.cut_fill _ _ _]
    iexact H0
  isplitl [H1]; · iexact H1
  iexists _; iexact H2

/-- The library's body obligation with the result window forgotten, at every point. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

/-- The buffers the host lines after the region may write: every buffer but the edge-index array and the bias. -/
def T : Finset (Ref sig .tc) := Finset.univ.filter fun b => b ≠ main_arg1 ∧ b ≠ main_arg3

/-- No host line after the region writes the edge-index array (each writes only its own result buffer). -/
theorem sfx_not_arg1 : ∀ op ∈ List.flatten ([hostOps1, hostOps1_1, hostOps1_2] : List (List (HloOp τ sig (Elt F)))),
    Proc.devRef .tc main_arg1 ∉ op.writes :=
  List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- Nor the bias. -/
theorem sfx_not_arg3 : ∀ op ∈ List.flatten ([hostOps1, hostOps1_1, hostOps1_2] : List (List (HloOp τ sig (Elt F)))),
    Proc.devRef .tc main_arg3 ∉ op.writes :=
  List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- So every buffer a host line after the region writes is in `T`. -/
theorem sfx_writes_T : ∀ ops ∈ ([hostOps1, hostOps1_1, hostOps1_2] : List (List (HloOp τ sig (Elt F)))), ∀ op ∈ ops,
    ∀ b : Ref sig .tc, Proc.devRef .tc b ∈ op.writes → b ∈ T := by
  intro ops hops op hop b hb
  have hmem : op ∈ List.flatten ([hostOps1, hostOps1_1, hostOps1_2] : List (List (HloOp τ sig (Elt F)))) :=
    List.mem_flatten.mpr ⟨ops, hops, hop⟩
  refine Finset.mem_filter.mpr ⟨Finset.mem_univ _, ?_, ?_⟩
  · rintro rfl; exact sfx_not_arg1 op hmem hb
  · rintro rfl; exact sfx_not_arg3 op hmem hb

set_option backward.isDefEq.respectTransparency.types false in
/-- At the compiled mesh, for any values, from any memory with zero counters: every weakly fair execution of @main on the
    TensorCores terminates, and every final state has each array of the pipeline at contents it may hold after every
    write-back — an input its entry contents, the forgotten result anything — and every unscoped buffer that is no array
    and that no later host line writes at its region-entry contents. -/
theorem run_main : θ_run defs (onTc (τ := τ) (main (F := F))) (s₀ m ρ)
    (Pipeline.RDat.FramePostR (cfgs 0) (fun c => (dats m 0 c).toRForget forgets0) T (V m)) :=
  Pipeline.RDat.θ_run_frame_around_T cfgs (0 : Fin 1) launch0 defs₀ Variants.none (fun c => (dats m 0 c).toRForget forgets0) T m ρ main
    (hbody := fun c => (body_obligation m c).toRForget) (hshare := fun c => ((dats m 0 c).toRForget forgets0).share_full fun _ => rfl)
    (howed := fun _ _ => rfl) (V₀ := V0 m) (opss := [hostOps1, hostOps1_1, hostOps1_2]) (hsub := sfx_sub) (hfresh := sfx_fresh)
    (hkeep := sfx_keeps) (hT := sfx_writes_T) (hmain := hmain m Variants.none) (hA := A_eq m) (hΦ := fun _ _ => rfl)

/-- THE FRAME: @main terminates and the four argument arrays end as launched.  x and W are inputs of the pipeline: an
    input array is never written back, so it holds its entry contents, which are the launch contents.  The edge-index array
    and the bias are no array of the pipeline and no later line writes them: they hold their region-entry contents, which
    are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(Eq.mp (congrFun (((dats m 0 c).toRForget forgets0).ArrAt_in 0 rfl _) _) ((h c).1 0)).trans ((A_eq m c 0).trans (V_main_arg0 m c)),
      ((h c).2 main_arg1 (Finset.mem_sdiff.mpr ⟨Pipeline.mem_restRefs_of main_arg1 (by decide) (by decide),
        fun hT => (Finset.mem_filter.mp hT).2.1 rfl⟩)).trans (V_main_arg1 m c),
      (Eq.mp (congrFun (((dats m 0 c).toRForget forgets0).ArrAt_in 1 rfl _) _) ((h c).1 1)).trans ((A_eq m c 1).trans (V_main_arg2 m c)),
      ((h c).2 main_arg3 (Finset.mem_sdiff.mpr ⟨Pipeline.mem_restRefs_of main_arg3 (by decide) (by decide),
        fun hT => (Finset.mem_filter.mp hT).2.2 rfl⟩)).trans (V_main_arg3 m c)⟩) (run_main m ρ)

/-- info: 'Cert.Kernel.Hand.frame' depends on axioms: [propext, Classical.choice, Quot.sound] -/
#guard_msgs in #print axioms frame

end Cert.Kernel.Hand

end
-- ==== Proof.IKernelRun.lean ====
/-
  The kernel body of the linear transform, run once on whole staging buffers.

  One grid point of the pallas_call loads the whole (16384, 16) block of x and the whole (8, 16) weight, rounds both to
  bf16, multiplies rows against rows on the matrix unit into a zero accumulator, and stores the (16384, 8) product over
  the whole result block (the load of the result block just before the store is dead).  So whatever the result buffer
  held, it ends holding the product of what the two input buffers hold, and the input buffers are unchanged.
-/
import proofs.«129181_j16166256902666_2_alg».proof.Proof.Gen.KernelIdeal.Frame
import proofs.«129181_j16166256902666_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three whole-buffer rectangles the body reads and writes. -/
abbrev rX : Rect S16384x16 := Rect.unit (s := S16384x16) ![0, 0] S16384x16.size inb_S16384x16_S16384x16_0_0
abbrev rW : Rect S8x16 := Rect.unit (s := S8x16) ![0, 0] S8x16.size inb_S8x16_S8x16_0_0
abbrev rO : Rect S16384x8 := Rect.unit (s := S16384x8) ![0, 0] S16384x8.size inb_S16384x8_S16384x8_0_0

/-- What the result buffer holds after the body, from what the two input buffers hold: its one store, of the product. -/
def out2 (x0 : Vec F S16384x16 .f32) (x1 : Vec F S8x16 .f32) : Vec F S16384x8 .f32 :=
  View.canon [⟨rO, k0_pay1 (View.ld x0 rX) (View.ld x1 rW)⟩]

/-- The one store covers the result buffer. -/
theorem cover2 (p0 : Vec F S16384x8 .f32) (y : S16384x8.Idx) :
    ∃ pc ∈ ([⟨rO, p0⟩] : List (View.Piece (Elt F) S16384x8 .f32)), y ∈ pc.1.set :=
  View.cover_of_tiled [⟨rO, p0⟩] S16384x8.size (by rfl) y

set_option maxHeartbeats 1000000 in
/-- The body on whole staging memrefs: the inputs' at contents `x0`, `x1` and the result's at anything; it runs to the
    continuation with the inputs' as they were and the result's at `out2 x0 x1`. -/
theorem sound_kernel (c : Dev nD) (E : Set ℕ) (i : grid0.Coords)
    (arg1 : Memref sig .tc .vmem S16384x16 .f32) (harg1 : arg1.IsWhole)
    (arg2 : Memref sig .tc .vmem S8x16 .f32) (harg2 : arg2.IsWhole)
    (arg3 : Memref sig .tc .vmem S16384x8 .f32) (harg3 : arg3.IsWhole)
    (x0 : Vec F S16384x16 .f32) (x1 : Vec F S8x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0_linear_kernel i arg1 harg1 arg2 harg2 arg3 harg3) K := by
  simp only [cc0_linear_kernel_eq_skeleton]; unfold cc0_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

end Cert.KernelIdeal.Hand

end
-- ==== Proof.LibDotRows.lean ====
/-
  A matrix product of rows against rows, [M, K] × [N, K] → [M, N], read at an index over the extended reals.

  With the contraction on axis 1 of BOTH operands and no batch axis (x · yᵀ without the transpose being formed), the
  product's entry (p, q) is the sum over k of lhs (p, k) · rhs (q, k): for a matrix unit's product into a zero
  accumulator (matmul_zero_apply) and for the host's dot_general (dotGeneral_apply) alike, whatever precision or
  schedule key they carry. Both follow from re-indexing the sum over the one-axis contraction shape by its coordinate
  (contr_sum).
-/
import Idealize.ShloMosaic.PureOps.Ideal.Laws
import Idealize.ShloMosaic.Lib.ValueIdx

noncomputable section

open scoped BigOperators

namespace Cert.DotRows

open Idealize.ShloMosaic Idealize.ShloMosaic.ValueIdx

variable {M K N : Nat}

/-- The dimension numbers of the product of rows against rows. -/
abbrev rowsDims (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable (wf : DotDims.WF ⟨2, ![M, K]⟩ ⟨2, ![N, K]⟩ ⟨2, ![M, N]⟩ [1] [1] [0] [0] [] [])

/-- The left operand's row coordinate is the result's row, whatever the contraction index. -/
theorem lhs_row (j : (⟨2, ![M, N]⟩ : Shape).Idx) (r : (rowsDims M K N wf).contr.Idx) :
    ((rowsDims M K N wf).lhsIdx j r 0).val = (j 0).val := by
  unfold DotDims.lhsIdx
  rw [dif_neg (show ¬ (0 : Fin 2) ∈ (rowsDims M K N wf).lhsBatch from List.not_mem_nil),
    dif_pos (show (0 : Fin 2) ∈ (rowsDims M K N wf).lhsNonContracting from List.mem_singleton.mpr rfl)]
  rfl

/-- The right operand's row coordinate is the result's column, whatever the contraction index. -/
theorem rhs_row (j : (⟨2, ![M, N]⟩ : Shape).Idx) (r : (rowsDims M K N wf).contr.Idx) :
    ((rowsDims M K N wf).rhsIdx j r 0).val = (j 1).val := by
  unfold DotDims.rhsIdx
  rw [dif_neg (show ¬ (0 : Fin 2) ∈ (rowsDims M K N wf).rhsBatch from List.not_mem_nil),
    dif_pos (show (0 : Fin 2) ∈ (rowsDims M K N wf).rhsNonContracting from List.mem_singleton.mpr rfl)]
  rfl

/-- The sum over the contraction shape is the sum over k of lhs (p, k) · rhs (q, k). -/
theorem contr_sum (lhs : (⟨2, ![M, K]⟩ : Shape).Idx → EReal) (rhs : (⟨2, ![N, K]⟩ : Shape).Idx → EReal) (p : Fin M) (q : Fin N) :
    ∑ k : (rowsDims M K N wf).contr.Idx, lhs ((rowsDims M K N wf).lhsIdx (ix2 p q) k) * rhs ((rowsDims M K N wf).rhsIdx (ix2 p q) k)
      = ∑ k : Fin K, lhs (ix2 p k) * rhs (ix2 q k) := by
  rw [← Equiv.sum_comp (contrEquiv1 (rowsDims M K N wf) K rfl rfl).symm]
  refine Finset.sum_congr rfl fun k _ => ?_
  have hk := contrEquiv1_symm_val (rowsDims M K N wf) K rfl rfl k
  have el : (rowsDims M K N wf).lhsIdx (ix2 p q) ((contrEquiv1 (rowsDims M K N wf) K rfl rfl).symm k) = ix2 p k :=
    funext fun a => Fin.ext (by
      match a with
      | ⟨0, _⟩ => exact lhs_row wf _ _
      | ⟨1, _⟩ => exact ((rowsDims M K N wf).lhsIdx_val_of_single rfl _ _).trans hk)
  have er : (rowsDims M K N wf).rhsIdx (ix2 p q) ((contrEquiv1 (rowsDims M K N wf) K rfl rfl).symm k) = ix2 q k :=
    funext fun a => Fin.ext (by
      match a with
      | ⟨0, _⟩ => exact rhs_row wf _ _
      | ⟨1, _⟩ => exact ((rowsDims M K N wf).rhsIdx_val_of_single rfl _ _).trans hk)
  rw [el, er]

/-- A MATRIX UNIT'S PRODUCT INTO A ZERO ACCUMULATOR, read at (p, q), for ANY dimension numbers of the rows-against-rows form. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the rows-against-rows form. -/
theorem dotGeneral_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.DotRows

end
-- ==== Proof.KernelDot.lean ====
/-
  The kernel's block product, read at an index over the extended reals.

  On one block of 16384 rows the kernel narrows both operands to bf16 — over the extended reals a change of format is
  the identity —, and multiplies rows against rows into a zero accumulator: [16384, 16] × [8, 16] → [16384, 8], both
  operands contracted on axis 1. So entry (p, q) of the block's result is the sum over the sixteen input channels k of
  v0 (p, k) · v2 (q, k) (pay_apply). The sum for row p reads row p of the left operand and nothing else, so two left
  operands that agree on row p give the same entry (p, q) (pay_row_congr).
-/
import proofs.«129181_j16166256902666_2_alg».proof.Proof.Gen.KernelIdeal.Skeleton
import proofs.«129181_j16166256902666_2_alg».proof.Proof.LibDotRows
import Idealize.ShloMosaic.Lib.ValueIdx
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- ENTRY (p, q) OF THE BLOCK PRODUCT: the sum over k of v0 (p, k) · v2 (q, k). The two narrowings to bf16 are the
identity over the extended reals, and the product of rows against rows into the zero accumulator is that sum. -/
theorem pay_apply (v0 : Vec Ideal S16384x16 .f32) (v2 : Vec Ideal S8x16 .f32) (p : Fin 16384) (q : Fin 8) :
    k0_pay1 (F := Ideal) v0 v2 (ix2 p q) = ∑ k : Fin 16, v0 (ix2 p k) * v2 (ix2 q k) := by
  unfold k0_pay1
  exact Cert.DotRows.matmul_zero_apply (M := 16384) (K := 16) (N := 8) (φ₁ := .bf16) (φ₂ := .bf16)
    dot_S16384x16_S8x16_S16384x8_1_1_0_0_n_n rfl rfl rfl rfl rfl rfl none v0 v2 p q

/-- ROW LOCALITY: entry (p, q) of the block product reads the left operand on row p only. -/
theorem pay_row_congr (v0 v0' : Vec Ideal S16384x16 .f32) (v2 : Vec Ideal S8x16 .f32) (p : Fin 16384) (q : Fin 8)
    (h : ∀ k : Fin 16, v0 (ix2 p k) = v0' (ix2 p k)) :
    k0_pay1 (F := Ideal) v0 v2 (ix2 p q) = k0_pay1 (F := Ideal) v0' v2 (ix2 p q) := by
  rw [pay_apply, pay_apply]
  exact Finset.sum_congr rfl fun k _ => by rw [h k]

end Cert.KernelIdeal.Hand

end
-- ==== Proof.LibClipFill.lean ====
/-
  Clipped blocks: two ways of filling out one block agree wherever the transfer moves.

  When a window's blocks do not tile its array, the block at the array's end overhangs it, and the transfer between the
  array and the staging buffer moves only the block's leading part, the part inside the array.  A staging buffer after a
  fetch then holds the moved part `g` on its leading part and, past the array's end, contents `d` that are no function of
  the array (`Window.fill i d g`).  Whatever `d` is, an entry the transfer moves reads `g` (fill_of_moved), so two fillings
  of one moved part agree on every moved entry (fill_eq_of_moved).  This is what lets a computation that reads a whole
  staging buffer, but whose written-back entries depend on moved entries only, be stated without naming `d`.
-/
import Idealize.ShloMosaic.Lib.Pipeline

namespace Cert.ClipFill

open Idealize.ShloMosaic Idealize.ShloMosaic.Pipeline

variable {sig : RefSig} {G : Grid}

/-- A filled-out block read at an entry the transfer moves is the moved part's entry there. -/
theorem fill_of_moved (w : Window sig G) {α : Type} (i : G.Coords) (d : w.block.Idx → α) (g : (w.xblock i).Idx → α)
    {j : w.block.Idx} (h : w.moved i j = true) :
    w.fill i d g j = g fun a => ⟨(j a).val, (w.moved_iff i j).mp h a⟩ := by
  unfold Window.fill; rw [dif_pos h]

/-- Two fillings of one moved part agree on every entry the transfer moves. -/
theorem fill_eq_of_moved (w : Window sig G) {α : Type} (i : G.Coords) (d d' : w.block.Idx → α) (g : (w.xblock i).Idx → α)
    {j : w.block.Idx} (h : w.moved i j = true) : w.fill i d g j = w.fill i d' g j := by
  rw [fill_of_moved w i d g h, fill_of_moved w i d' g h]

end Cert.ClipFill
-- ==== Proof.IBody.lean ====
/-
  The linear transform's pallas_call at the ideal instance: the proof data, the body obligation and the run.

  The pallas_call walks 31 blocks of 16384 rows of x [500000, 16]; the last block overhangs the array by 7904 rows.  At a
  point the staging buffer of x holds the block's rows inside the array and, past the array's end, words that are no
  function of the array; the body multiplies the whole buffer against W's rows.  Over the extended reals entry (p, q) of the
  product is the sum over k of (row p of the left operand)(k) · W (q, k): it reads row p of the left operand only.  So on the
  rows inside the array the product does not depend on what fills the buffer past the array's end, and those rows are all the
  write-back moves.  The proof data therefore name, after the body at point t: the buffer of x as its block filled out with
  zeros, the buffer of W as W, and the result's buffer as the product of those two; every obligation is stated on the rows
  the transfers move.
-/
import proofs.«129181_j16166256902666_2_alg».proof.Proof.IKernelRun
import proofs.«129181_j16166256902666_2_alg».proof.Proof.KernelDot
import proofs.«129181_j16166256902666_2_alg».proof.Proof.LibClipFill
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The product on the rows the write-back moves -/

theorem hz : (![0, 0] : Fin 2 → Nat) = fun _ => 0 := funext fun a => by fin_cases a <;> rfl

/-- The result buffer's one store is through its whole rectangle: it leaves the product of the two loaded buffers. -/
theorem out2_eq {F : FTy → Type} [FloatOps F] (x0 : Vec F S16384x16 .f32) (x1 : Vec F S8x16 .f32) :
    out2 x0 x1 = k0_pay1 x0 x1 := by
  unfold out2
  rw [View.canon_unit_zero hz]
  simp only [View.ld_unit_zero (S := S16384x16) hz, View.ld_unit_zero (S := S8x16) hz]

/-- The blocks of x and of the result are cut alike along the rows, and a block of x is never cut along the channels. -/
theorem xsize_rows (i : grid0.Coords) : win0_0.xsize i 0 = win0_2.xsize i 0 := rfl
theorem xsize_chan (i : grid0.Coords) : win0_0.xsize i 1 = 16 := rfl

/-- Two fillings of one block agree wherever the transfer moves. -/
theorem fill_eq_of_moved {α : Type} (i : grid0.Coords) (d d' : win0_0.block.Idx → α) (g : (win0_0.xblock i).Idx → α)
    {j : win0_0.block.Idx} (h : win0_0.moved i j = true) : win0_0.fill i d g j = win0_0.fill i d' g j :=
  Cert.ClipFill.fill_eq_of_moved win0_0 i d d' g h

/-- ROW LOCALITY, ON THE MOVED ROWS: the rows of the product that the write-back moves do not depend on what fills the
    buffer of x past the array's end — entry (p, q) reads row p of the left operand, and a moved row of the result is a
    moved row of x. -/
theorem cut_pay_congr (i : grid0.Coords) (d d' : S16384x16.Idx → Elt Ideal .f32) (g : (win0_0.xblock i).Idx → Elt Ideal .f32)
    (w : Vec Ideal S8x16 .f32) :
    win0_2.cut i (k0_pay1 (F := Ideal) (win0_0.fill i d g) w) = win0_2.cut i (k0_pay1 (F := Ideal) (win0_0.fill i d' g) w) := by
  funext j
  have hj0 : (j 0).val < win0_2.xsize i 0 := (j 0).isLt
  have hj1 : (j 1).val < win0_2.xsize i 1 := (j 1).isLt
  have hle0 : win0_2.xsize i 0 ≤ 16384 := win0_2.xsize_le i 0
  have hle1 : win0_2.xsize i 1 ≤ 8 := win0_2.xsize_le i 1
  have e : win0_2.xinj i j = ix2 (⟨(j 0).val, by omega⟩ : Fin 16384) (⟨(j 1).val, by omega⟩ : Fin 8) :=
    funext fun a => Fin.ext (by match a with | ⟨0, _⟩ => rfl | ⟨1, _⟩ => rfl)
  show k0_pay1 (F := Ideal) (win0_0.fill i d g) w (win0_2.xinj i j) = k0_pay1 (F := Ideal) (win0_0.fill i d' g) w (win0_2.xinj i j)
  rw [e]
  refine pay_row_congr _ _ w _ _ fun k => ?_
  refine fill_eq_of_moved i d d' g ((win0_0.moved_iff i _).mpr fun a => ?_)
  match a with
  | ⟨0, _⟩ => show (j 0).val < win0_0.xsize i 0; rw [xsize_rows]; exact hj0
  | ⟨1, _⟩ => show k.val < win0_0.xsize i 1; rw [xsize_chan]; exact k.isLt

variable (m : (ℓ : Loc nD τ sig) → Buf (Elt Ideal) ℓ) (ρ : Dev nD → PrngReg)

/-! ## The proof data -/

/-- The block of x at point t filled out with zeros past the array's end. -/
def xfull (c : Dev nD) (t : Fin cfg0.N) : S16384x16.Idx → Elt Ideal .f32 :=
  win0_0.fill (grid0.coords t) (fun _ => FloatOps.ofBits (F := Ideal) .f32 0#32) (iblk m c 0 t)

/-- The proof data of the one pipeline on core c: the arrays as the region finds them; after the body at point t the
    buffer of x at its block filled out with zeros, the buffer of W at W, the result's at their product; the invariant the
    scoped rest and the generator register; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => k0_pay1 (F := Ideal) (xfull m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = k0_pay1 (F := Ideal) (xfull m c t) (iblk m c 1 t) := by dsimp only [dats]

/-- The buffer of x is fetched at every point: the body finds the block of x on the rows inside the array and, past the
    array's end, whatever the buffer held (d). -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The buffer of W holds W at every point, fetched there (the first) or not. -/
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns: the buffers of x and of the result stated on the rows their transfers move, that of W exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ (∃ d, owns (c : Thread nD τ) (st0_2 t) fullShare
        ((cfg0.win 2).fill (cfg0.grid.coords t) d ((cfg0.win 2).cut (cfg0.grid.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show (cfg0.win 0).cut (cfg0.grid.coords t) (xfull m c t) = iblk m c 0 t from win0_0.cut_fill _ _ _]
    iexact H0
  isplitl [H1]; · iexact H1
  iexists k0_pay1 (F := Ideal) (win0_0.fill (grid0.coords t) d0 (iblk m c 0 t)) (iblk m c 1 t)
  rw [out2_eq]
  rw [show (cfg0.win 2).fill (cfg0.grid.coords t) (k0_pay1 (F := Ideal) (win0_0.fill (grid0.coords t) d0 (iblk m c 0 t)) (iblk m c 1 t))
        ((cfg0.win 2).cut (cfg0.grid.coords t) (k0_pay1 (F := Ideal) (xfull m c t) (iblk m c 1 t)))
      = k0_pay1 (F := Ideal) (win0_0.fill (grid0.coords t) d0 (iblk m c 0 t)) (iblk m c 1 t) from
    win0_2.fill_congr_cut (grid0.coords t) (cut_pay_congr (grid0.coords t) d0 _ (iblk m c 0 t) (iblk m c 1 t))]
  iexact H2

theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates; every array of the pipeline ends at what the write-backs leave, every
    other unscoped buffer as the host lines after the region leave it. -/
theorem run_main : θ_run defs (onTc (τ := τ) (main (F := Ideal))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh)
    (hkeep := sfx_keeps) (hmain := hmain m Variants.none) (hA := A_eq m) (hΦ := fun _ _ => rfl)

/-- The frame: @main terminates and the four argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Lin.lean ====
/-
  The specification of the linear transform: h = x · Wᵀ over the extended reals.

  Entry (p, q) of h is the sum over the sixteen input channels k of x (p, k) · W (q, k): each node's feature row
  contracted against each output channel's weight row.  Both programs compute exactly this array (one by a product of
  rows against rows on each block of rows, the other by a product against the transposed weight), and feed it to the
  same message-passing operations.
-/
import Idealize.ShloMosaic.PureOps.Ideal
import Idealize.ShloMosaic.Lib.ValueIdx

noncomputable section

open scoped BigOperators

namespace Cert.Lin

open Idealize.ShloMosaic Idealize.ShloMosaic.ValueIdx

/-- Entry (p, q) of x · Wᵀ. -/
def linAt (x : (⟨2, ![500000, 16]⟩ : Shape).Idx → EReal) (W : (⟨2, ![8, 16]⟩ : Shape).Idx → EReal) (p : Fin 500000) (q : Fin 8) : EReal :=
  ∑ k : Fin 16, x (ix2 p k) * W (ix2 q k)

/-- x · Wᵀ as an array [500000, 8]. -/
def lin (x : (⟨2, ![500000, 16]⟩ : Shape).Idx → EReal) (W : (⟨2, ![8, 16]⟩ : Shape).Idx → EReal) :
    (⟨2, ![500000, 8]⟩ : Shape).Idx → EReal :=
  fun j => linAt x W (j 0) (j 1)

theorem lin_ix2 (x : (⟨2, ![500000, 16]⟩ : Shape).Idx → EReal) (W : (⟨2, ![8, 16]⟩ : Shape).Idx → EReal) (p : Fin 500000) (q : Fin 8) :
    lin x W (ix2 p q) = linAt x W p q := rfl

end Cert.Lin

end
-- ==== Proof.IValue.lean ====
/-
  The result array of the pallas_call after all 31 write-backs is x · Wᵀ.

  Point t of the grid writes back rows [16384·t, 16384·t + n_t) of the result, n_t = 16384 for t < 30 and 8480 for t = 30
  (500000 = 30·16384 + 8480).  What it writes on row r of its block, column q, is entry (r, q) of the block product: the sum
  over the sixteen input channels k of (the block of x, filled out)(r, k) · W (q, k).  Row r is a row the write-back moves,
  so it is a row the fetch of x moved, where the filled-out block holds x's row 16384·t + r.  So point t writes block t of
  x · Wᵀ (flushed2_eq).  Every row r of the result lies in the block of the point t = ⌊r / 16384⌋, which is written back
  (covered2): the written blocks cover the array, and it ends holding x · Wᵀ (final2).
-/
import proofs.«129181_j16166256902666_2_alg».proof.Proof.IBody
import proofs.«129181_j16166256902666_2_alg».proof.Proof.Lin

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The arithmetic of the rows: 500000 = 30·16384 + 8480 -/

/-- A row r of block t below the block's height is a row of the array: block t ends no later than the array does. -/
theorem row_lt {tv r xs : Nat} (h : tv * 16384 + xs = min ((tv + 1) * 16384) 500000) (hr : r < xs) :
    tv * 16384 + r < 500000 := by omega

/-- Row r of the array lies in block ⌊r / 16384⌋, one of the 31. -/
theorem point_lt {r : Nat} (hr : r < 500000) : r / 16384 < 31 := by omega

/-- Row r of the array lies between the start of block ⌊r / 16384⌋ and its end: the block ends where the array does or
    where the next block starts, and r is below both. -/
theorem row_mem {r tv idx xs : Nat} (hr : r < 500000) (ht : tv = r / 16384) (hidx : idx = tv)
    (hxs : tv * 16384 + xs = min ((tv + 1) * 16384) 500000) : idx * 16384 ≤ r ∧ r < idx * 16384 + xs := by omega

/-- Every column is in every block: the blocks span the 8 columns. -/
theorem col_mem {cidx col xs : Nat} (hc : col < 8) (hidx : cidx = 0) (hxs : xs = 8) :
    cidx * 8 ≤ col ∧ col < cidx * 8 + xs := by omega

/-! ## The index maps over the grid -/

/-- The three index maps at each of the 31 points: the blocks of x and of the result are at block row t, block column 0;
    the block of W is the whole of W; a block of the result is never cut along its 8 columns; and along the rows block t
    ends where the array does or where the next block starts, whichever comes first. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_2.xsize (grid0.coords t) (1 : Fin 2) = 8
    ∧ t.val * 16384 + win0_2.xsize (grid0.coords t) (0 : Fin 2) = min ((t.val + 1) * 16384) 500000 :=
  (by decide +kernel : ∀ t : Fin grid0.N, _)

/-! ## What a point writes back -/

/-- On an entry its fetch moved, the filled-out block of x holds the block of x. -/
theorem xfull_of_moved (c : Dev nD) (t : Fin cfg0.N) (j : S16384x16.Idx) (h : win0_0.moved (grid0.coords t) j = true) :
    xfull m c t j = iblk m c 0 t (fun a => ⟨(j a).val, (win0_0.moved_iff (grid0.coords t) j).mp h a⟩) := by
  unfold xfull Window.fill; rw [dif_pos h]

/-- WHAT POINT t WRITES BACK is block t of x · Wᵀ of the arrays as the region finds them. -/
theorem flushed2_eq (c : Dev nD) (t : Fin cfg0.N) :
    (dats m 0 c).flushed 2 t
      = ((cfg0.win 2).blk t).view.read (Elt Ideal) (Cert.Lin.lin (V m c main_arg0) (V m c main_arg2)) := by
  show (cfg0.win 2).cut (grid0.coords t) ((dats m 0 c).after 2 t) = _
  rw [after0_2]
  funext j
  -- the index of the cut block by its coordinates: a row r below the cut height, a column below 8
  have hj0 : (j 0).val < win0_2.xsize (grid0.coords t) 0 := (j 0).isLt
  have hj1 : (j 1).val < win0_2.xsize (grid0.coords t) 1 := (j 1).isLt
  have hle0 : win0_2.xsize (grid0.coords t) 0 ≤ 16384 := win0_2.xsize_le (grid0.coords t) 0
  have hle1 : win0_2.xsize (grid0.coords t) 1 ≤ 8 := win0_2.xsize_le (grid0.coords t) 1
  -- p: the row inside the block; q: the column; P: the row of the array, 16384·t + p, below 500000
  obtain ⟨p, hp⟩ : ∃ p : Fin 16384, p.val = (j 0).val := ⟨⟨(j 0).val, by omega⟩, rfl⟩
  obtain ⟨q, hq⟩ : ∃ q : Fin 8, q.val = (j 1).val := ⟨⟨(j 1).val, by omega⟩, rfl⟩
  obtain ⟨e00, e01, e10, e11, e20, e21, ex1, ex0⟩ := idx_facts t
  obtain ⟨P, hP⟩ : ∃ P : Fin 500000, P.val = t.val * 16384 + (j 0).val :=
    ⟨⟨t.val * 16384 + (j 0).val, row_lt ex0 hj0⟩, rfl⟩
  have e : win0_2.xinj (grid0.coords t) j = ix2 p q :=
    funext fun a => Fin.ext (by match a with | ⟨0, _⟩ => exact hp.symm | ⟨1, _⟩ => exact hq.symm)
  have hr : ((cfg0.win 2).blk t).view.emb j = ix2 P q :=
    funext fun a => Fin.ext (by
      match a with
      | ⟨0, _⟩ => show win0_2.index t (0 : Fin 2) * 16384 + 1 * (j 0).val = P.val; rw [e20, hP, Nat.one_mul]
      | ⟨1, _⟩ =>
        show win0_2.index t (1 : Fin 2) * 8 + 1 * (j 1).val = q.val
        rw [e21, hq, Nat.zero_mul, Nat.zero_add, Nat.one_mul])
  show k0_pay1 (F := Ideal) (xfull m c t) (iblk m c 1 t) (win0_2.xinj (grid0.coords t) j)
    = Cert.Lin.lin (V m c main_arg0) (V m c main_arg2) (((cfg0.win 2).blk t).view.emb j)
  -- the left side: entry (p, q) of the block product; the right side: entry (P, q) of x · Wᵀ
  rw [e, pay_apply, hr, Cert.Lin.lin_ix2]
  unfold Cert.Lin.linAt
  refine Finset.sum_congr rfl fun k _ => ?_
  refine congrArg₂ (· * ·) ?_ ?_
  · -- row p of the filled-out block of x is a row the fetch moved: it holds row P of x
    have hmoved : win0_0.moved (grid0.coords t) (ix2 p k) = true :=
      (win0_0.moved_iff (grid0.coords t) _).mpr fun a => by
        match a with
        | ⟨0, _⟩ => show p.val < win0_0.xsize (grid0.coords t) 0; rw [xsize_rows, hp]; exact hj0
        | ⟨1, _⟩ => show k.val < win0_0.xsize (grid0.coords t) 1; rw [xsize_chan]; exact k.isLt
    rw [xfull_of_moved m c t _ hmoved]
    show V m c main_arg0 (((cfg0.win 0).blk t).view.emb _) = V m c main_arg0 (ix2 P k)
    refine congrArg (V m c main_arg0) (funext fun a => Fin.ext ?_)
    match a with
    | ⟨0, _⟩ => show win0_0.index t (0 : Fin 2) * 16384 + 1 * p.val = P.val; rw [e00, hP, hp, Nat.one_mul]
    | ⟨1, _⟩ =>
      show win0_0.index t (1 : Fin 2) * 16 + 1 * k.val = k.val
      rw [e01, Nat.zero_mul, Nat.zero_add, Nat.one_mul]
  · -- the block of W is W
    show V m c main_arg2 (((cfg0.win 1).blk t).view.emb (ix2 q k)) = V m c main_arg2 (ix2 q k)
    refine congrArg (V m c main_arg2) (funext fun a => Fin.ext ?_)
    match a with
    | ⟨0, _⟩ =>
      show win0_1.index t (0 : Fin 2) * 8 + 1 * q.val = q.val
      rw [e10, Nat.zero_mul, Nat.zero_add, Nat.one_mul]
    | ⟨1, _⟩ =>
      show win0_1.index t (1 : Fin 2) * 16 + 1 * k.val = k.val
      rw [e11, Nat.zero_mul, Nat.zero_add, Nat.one_mul]

/-! ## The written blocks cover the array -/

/-- An index of the result is in point t's block iff each coordinate is in the block's range on its axis: from the
    block's start, as many coordinates as the write-back moves. -/
theorem mem_blk2 (t : Fin cfg0.N) (i : S500000x8.Idx) :
    i ∈ ((cfg0.win 2).blk t).view.set ↔ ∀ a : Fin 2, win0_2.index t a * S16384x8.size a ≤ (i a).val
      ∧ (i a).val < win0_2.index t a * S16384x8.size a + win0_2.xsize (grid0.coords t) a := by
  show i ∈ ((View.whole main_v7).slice (win0_2.rect t)).set ↔ _
  rw [View.set_slice_whole, Rect.mem_set_unit]
  exact Iff.rfl

/-- EVERY INDEX OF THE RESULT IS IN A WRITTEN BLOCK: row r in that of the point ⌊r / 16384⌋. -/
theorem covered2 (i : S500000x8.Idx) :
    ∃ t : Fin cfg0.N, (cfg0.win 2).flush t = true ∧ i ∈ ((cfg0.win 2).blk t).view.set := by
  have hi0 : (i 0).val < 500000 := (i 0).isLt
  have hi1 : (i 1).val < 8 := (i 1).isLt
  obtain ⟨t, ht⟩ : ∃ t : Fin cfg0.N, t.val = (i 0).val / 16384 :=
    ⟨⟨(i 0).val / 16384, by show (i 0).val / 16384 < grid0.N; rw [N_0]; exact point_lt hi0⟩, rfl⟩
  obtain ⟨-, -, -, -, e20, e21, ex1, ex0⟩ := idx_facts t
  refine ⟨t, flush0_2 t, ?_⟩
  rw [mem_blk2]
  intro a
  match a with
  | ⟨0, _⟩ =>
    show win0_2.index t (0 : Fin 2) * 16384 ≤ (i 0).val
      ∧ (i 0).val < win0_2.index t (0 : Fin 2) * 16384 + win0_2.xsize (grid0.coords t) (0 : Fin 2)
    exact row_mem hi0 ht e20 ex0
  | ⟨1, _⟩ =>
    show win0_2.index t (1 : Fin 2) * 8 ≤ (i 1).val
      ∧ (i 1).val < win0_2.index t (1 : Fin 2) * 8 + win0_2.xsize (grid0.coords t) (1 : Fin 2)
    exact col_mem hi1 e21 ex1

/-! ## The array after the run -/

/-- THE RESULT ARRAY after the 31 write-backs is x · Wᵀ of the argument arrays as launched. -/
theorem final2 (c : Dev nD) :
    (dats m 0 c).arrAt 2 cfg0.N
      = Cert.Lin.lin (m ((c.tc : Thread nD τ).loc main_arg0)) (m ((c.tc : Thread nD τ).loc main_arg2)) := by
  have h := (dats m 0 c).arrAt_eq_of_cover 2 (Cert.Lin.lin (V m c main_arg0) (V m c main_arg2))
    (fun t _ => flushed2_eq m c t) covered2
  rw [V_main_arg0, V_main_arg2] at h
  exact h

end Cert.KernelIdeal.Hand

end
-- ==== Proof.SpecK.lean ====
import proofs.«129181_j16166256902666_2_alg».proof.Proof.Gen.KernelIdeal
import Idealize.ShloMosaic.PureOps.Ideal

/-!
# The shared graph-convolution operations, spelt with the kernel program's own shapes and dimension records

The same function as the specification's (edge list extended by self loops, in-degree, 1/√deg where positive, the
edge weights, the weighted rows of h summed at their destinations, plus the bias), word for word, but every shape and
every gather / scatter dimension record is the kernel program's own constant rather than the reference's.  The two
spellings denote one function: the records have the same fields and the shapes the same extents.
-/

noncomputable section

namespace Cert.SpecK

open Cert.KernelIdeal Cert.KernelIdeal.Gen Idealize.ShloMosaic

/-- The source of every edge of the extended list: row 0 of the edge list (5000000 entries) followed by the nodes
    `0, 1, …, 499999` themselves (one self loop each): 5500000 entries. -/
def srcIdx (e : IVec S2x5000000 32) : IVec S5500000 32 :=
  concatenate S5500000 0 [⟨S5000000, (shapeCast _ (extractStridedSlice S1x5000000 ![0, 0] e slices_S2x5000000_S1x5000000_0_0) shapeCasts_S1x5000000_S5000000)⟩, ⟨S500000, (iotaInDim S500000 32 0)⟩] concatenates_S5000000_S500000_S5500000_d0

/-- The destination of every edge of the extended list: row 1 of the edge list followed by `0, 1, …, 499999`. -/
def dstIdx (e : IVec S2x5000000 32) : IVec S5500000 32 :=
  concatenate S5500000 0 [⟨S5000000, (shapeCast _ (extractStridedSlice S1x5000000 ![1, 0] e slices_S2x5000000_S1x5000000_1_0) shapeCasts_S1x5000000_S5000000)⟩, ⟨S500000, (iotaInDim S500000 32 0)⟩] concatenates_S5000000_S500000_S5500000_d0

/-- A node index read as a signed integer, a negative one counting from the end: `i ↦ if i < 0 then i + 500000 else i`,
    entry by entry. -/
def wrapIdx (i : IVec S5500000 32) : IVec S5500000 32 :=
  select (cmpi .slt i (broadcastInDim S5500000 ![] bcast_S_S5500000 (constantI S_ 32 0#32))) (addi i (broadcastInDim S5500000 ![] bcast_S_S5500000 (constantI S_ 32 500000#32))) i

/-- The in-degree of each node in the extended edge list: starting from `0`, every edge adds `1` at its destination:
    `deg v = Σ_{e : d e = v} 1`. -/
def deg (d : IVec S5500000 32) : FVec Ideal S500000 .f32 :=
  Host.scatterAdd (F := Ideal) scatter_S500000_S5500000x1_S5500000_n_0_0_1 (broadcastInDim S500000 ![] bcast_S_S500000 (constant (F := Ideal) S_ .f32 0x00000000#32)) (broadcastInDim S5500000x1 ![0] bcast_S5500000_S5500000x1_0 d) (broadcastInDim S5500000 ![] bcast_S_S5500000 (constant (F := Ideal) S_ .f32 0x3F800000#32))

/-- `dinv v = 1 / √(deg v)` where `deg v > 0`, and `0` elsewhere. -/
def dinv (d : IVec S5500000 32) : FVec Ideal S500000 .f32 :=
  select (cmpf (F := Ideal) .ogt (deg d) (broadcastInDim S500000 ![] bcast_S_S500000 (constant (F := Ideal) S_ .f32 0x00000000#32))) (Host.rsqrt (F := Ideal) (deg d)) (broadcastInDim S500000 ![] bcast_S_S500000 (constant (F := Ideal) S_ .f32 0x00000000#32))

/-- The weight of each edge: `norm e = dinv (s e) · dinv (d e)`, the degrees being those of the destinations `d`. -/
def norm (s d : IVec S5500000 32) : FVec Ideal S5500000 .f32 :=
  mulf (F := Ideal) (Host.gather gather_S500000_S5500000x1_S5500000_n_0_n_n_0_1_1 (dinv d) (broadcastInDim S5500000x1 ![0] bcast_S5500000_S5500000x1_0 (wrapIdx s))) (Host.gather gather_S500000_S5500000x1_S5500000_n_0_n_n_0_1_1 (dinv d) (broadcastInDim S5500000x1 ![0] bcast_S5500000_S5500000x1_0 (wrapIdx d)))

/-- What both programs do with the index vectors `s` (sources), `d` (destinations), the transformed features `h`
    and the bias `b`: every edge `e` carries row `s e` of `h` scaled by `norm e` to node `d e`, where the
    contributions are summed from `0`; the bias is then added to every row:
    `tail s d h b v j = (Σ_{e : d e = v} norm s d e · h (s e) j) + b j`. -/
def tail (s d : IVec S5500000 32) (h : FVec Ideal S500000x8 .f32) (b : FVec Ideal S8 .f32) : FVec Ideal S500000x8 .f32 :=
  addf (F := Ideal) (Host.scatterAdd (F := Ideal) scatter_S500000x8_S5500000x1_S5500000x8_1_0_0_1 (broadcastInDim S500000x8 ![] bcast_S_S500000x8 (constant (F := Ideal) S_ .f32 0x00000000#32)) (broadcastInDim S5500000x1 ![0] bcast_S5500000_S5500000x1_0 d) (mulf (F := Ideal) (broadcastInDim S5500000x8 ![0, 1] bcast_S5500000x1_S5500000x8_0_1 (broadcastInDim S5500000x1 ![0] bcast_S5500000_S5500000x1_0 (norm s d))) (Host.gather gather_S500000x8_S5500000x1_S5500000x8_1_0_n_n_0_1_18 h (broadcastInDim S5500000x1 ![0] bcast_S5500000_S5500000x1_0 (wrapIdx s))))) (broadcastInDim S500000x8 ![0, 1] bcast_S1x8_S500000x8_0_1 (broadcastInDim S1x8 ![1] bcast_S8_S1x8_1 b))

end Cert.SpecK
-- ==== Proof.KTail.lean ====
import proofs.«129181_j16166256902666_2_alg».proof.Proof.Gen.KernelIdeal.Frame
import proofs.«129181_j16166256902666_2_alg».proof.Proof.SpecK
import Idealize.ShloMosaic.Lib.StableHlo.Run

/-!
# After its region, the kernel program applies the shared graph convolution to what the region left

The kernel program computes the source and destination index vectors of the extended edge list before its region, the
region writes the transformed features `h` into its result array, and the lines after the region do the rest: the
in-degree of every node, `1 / √deg` where the degree is positive, the edge weights, the weighted rows of `h` summed
at their destinations, plus the bias. Read in order, those lines compose to the shared function `tail` (spelt with the
kernel program's own shapes and dimension records) of

* the index vectors as the lines before the region left them (`V_main_v5`, `V_main_v6`): no array of the region, so
  unchanged at its exit (`exit_main_v5`, `exit_main_v6`);
* the contents of the region's result array at its exit, whatever they are (`exit_main_v7`);
* the bias as launched (`exit_main_arg3`).

The statement is for any proof data of the region: it says nothing of what the region computes.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable (m : (ℓ : Loc nD τ sig) → Buf (Elt Ideal) ℓ)

/-- The source index vector the lines before the region leave: row 0 of the edge list followed by `0 … 499999`. -/
theorem V_main_v5 (c : Dev nD) :
    (Gen.V m c main_v5 : S5500000.Idx → BitVec 32) = Cert.SpecK.srcIdx (m ((c.tc : Thread nD τ).loc main_arg1)) := by
  show StableHlo.after hostOps0 (fun b => m (c, b)) (Proc.devRef .tc main_v5) = _
  after_results
  rfl

/-- The destination index vector likewise, from row 1. -/
theorem V_main_v6 (c : Dev nD) :
    (Gen.V m c main_v6 : S5500000.Idx → BitVec 32) = Cert.SpecK.dstIdx (m ((c.tc : Thread nD τ).loc main_arg1)) := by
  show StableHlo.after hostOps0 (fun b => m (c, b)) (Proc.devRef .tc main_v6) = _
  after_results
  rfl

variable (dats : (p : Fin 1) → (c : Dev nD) → Pipeline.Dat τ (Elt Ideal) Unit ℕ (UR sig nD τ) ℕ (cfgs p) c)

/-- At the region's exit the result array of the region (window 2) holds what the region left there. -/
theorem exit_main_v7 (c : Dev nD) :
    Pipeline.withArrays spec0 c (Gen.V0 m c) (fun w => (dats 0 c).arrAt w cfg0.N) (Proc.devRef .tc main_v7) = (dats 0 c).arrAt 2 cfg0.N :=
  Pipeline.withArrays_arr spec0 launch0.win.arr_inj c _ _ 2

/-- The source index vector is no array of the region: at its exit it is as the lines before the region left it. -/
theorem exit_main_v5 (c : Dev nD) :
    (Pipeline.withArrays spec0 c (Gen.V0 m c) (fun w => (dats 0 c).arrAt w cfg0.N) (Proc.devRef .tc main_v5) : S5500000.Idx → BitVec 32)
      = Cert.SpecK.srcIdx (m ((c.tc : Thread nD τ).loc main_arg1)) :=
  (Pipeline.withArrays_of_ne spec0 c (Gen.V0 m c) _ main_v5 (by decide : ∀ w, Pipeline.arrRef spec0 w ≠ main_v5)).trans (V_main_v5 m c)

/-- The destination index vector likewise. -/
theorem exit_main_v6 (c : Dev nD) :
    (Pipeline.withArrays spec0 c (Gen.V0 m c) (fun w => (dats 0 c).arrAt w cfg0.N) (Proc.devRef .tc main_v6) : S5500000.Idx → BitVec 32)
      = Cert.SpecK.dstIdx (m ((c.tc : Thread nD τ).loc main_arg1)) :=
  (Pipeline.withArrays_of_ne spec0 c (Gen.V0 m c) _ main_v6 (by decide : ∀ w, Pipeline.arrRef spec0 w ≠ main_v6)).trans (V_main_v6 m c)

/-- The bias is no array of the region and no line before it writes it: at the region's exit it is as launched. -/
theorem exit_main_arg3 (c : Dev nD) :
    Pipeline.withArrays spec0 c (Gen.V0 m c) (fun w => (dats 0 c).arrAt w cfg0.N) (Proc.devRef .tc main_arg3) = m ((c.tc : Thread nD τ).loc main_arg3) :=
  (Pipeline.withArrays_of_ne spec0 c (Gen.V0 m c) _ main_arg3 (by decide : ∀ w, Pipeline.arrRef spec0 w ≠ main_arg3)).trans (Gen.V_main_arg3 m c)

/-- The one operation of the inlined call (an entrywise choice between two vectors by a mask) is the plain entrywise
    choice on its three operand buffers: each operand is carried along an equation between its buffer's declared type
    and the value's type that holds by computation, so the carrying is the identity. -/
theorem where_op :
    (StableHlo.TRef.ternary (.of main_v13 : StableHlo.TRef sig ⟨S500000, .i1⟩) (.of main_v14 : StableHlo.TRef sig ⟨S500000, .f32⟩) (.of main_v15 : StableHlo.TRef sig ⟨S500000, .f32⟩) (.of main_v16 : StableHlo.TRef sig ⟨S500000, .f32⟩) select : HloOp τ sig (Elt Ideal))
      = StableHlo.ternary main_v13 main_v14 main_v15 main_v16 (select : (⟨S500000, .i1⟩ : BufTy).Contents (Elt Ideal) → (⟨S500000, .f32⟩ : BufTy).Contents (Elt Ideal) → (⟨S500000, .f32⟩ : BufTy).Contents (Elt Ideal) → (⟨S500000, .f32⟩ : BufTy).Contents (Elt Ideal)) := rfl

/-- The kernel program's result buffer after the lines that follow the region: the shared function of the two index
    vectors, of the region's result array at its exit, and of the bias. The lines are read in order, each result
    buffer at its operation's value of its operands' contents; the four buffers no line of the tail writes are read at
    the region's exit; what is left is the text of `tail`. -/
theorem kernel_tail_K (c : Dev nD) :
    Pipeline.afterTail₀ cfgs dats 0 (Gen.V0 m) [hostOps1, hostOps1_1, hostOps1_2] c main_v47
      = Cert.SpecK.tail (Cert.SpecK.srcIdx (m ((c.tc : Thread nD τ).loc main_arg1))) (Cert.SpecK.dstIdx (m ((c.tc : Thread nD τ).loc main_arg1)))
          ((dats 0 c).arrAt 2 cfg0.N) (m ((c.tc : Thread nD τ).loc main_arg3)) := by
  unfold Pipeline.afterTail₀
  simp only [hostOps1, hostOps1_1, hostOps1_2, where_op, List.flatten_cons, List.flatten_nil, List.append_nil, List.cons_append, List.nil_append]
  after_results_simp
  rw [exit_main_v7 m dats c, exit_main_v5 m dats c, exit_main_v6 m dats c, exit_main_arg3 m dats c]
  unfold Cert.SpecK.tail Cert.SpecK.norm Cert.SpecK.dinv Cert.SpecK.deg Cert.SpecK.wrapIdx
  rfl

end Cert.KernelIdeal.Hand
-- ==== Proof.Spec.lean ====
import proofs.«129181_j16166256902666_2_alg».proof.Proof.Gen.ReferenceIdeal
import Idealize.ShloMosaic.PureOps.Ideal

/-!
# The graph convolution both programs compute after their linear transform

Both programs take node features `x` (500000 × 16), an edge list `edge_index` (2 × 5000000), a weight `W` (8 × 16)
and a bias (8). Each first forms `h = x · Wᵀ` (500000 × 8) in its own way, and then applies the SAME operations to
`h`, the edge list and the bias. This file states those shared operations once, over the extended reals, as a
function of the source and destination index vectors, of `h` and of the bias:

* the edge list is extended by one self loop per node: `src = edge_index[0] ++ (0, 1, …, 499999)`, `dst` likewise
  from row 1 (`srcIdx`, `dstIdx`);
* `deg v = Σ_{e : dst e = v} 1` is the in-degree of node `v` in the extended list (`deg`);
* `dinv v = 1 / √(deg v)` where `deg v > 0`, and `0` elsewhere (`dinv`);
* edge `e` weighs `norm e = dinv (src e) · dinv (dst e)` (`norm`);
* the result at node `v`, feature `j` is `(Σ_{e : dst e = v} norm e · h (src e) j) + bias j` (`tail`).

An index is read as a signed 32-bit integer, a negative one counting from the end (`wrapIdx`: `i < 0 ↦ i + 500000`).
-/

noncomputable section

namespace Cert.Spec

open Cert.ReferenceIdeal Cert.ReferenceIdeal.Gen Idealize.ShloMosaic

/-- The source of every edge of the extended list: row 0 of the edge list (5000000 entries) followed by the nodes
    `0, 1, …, 499999` themselves (one self loop each): 5500000 entries. -/
def srcIdx (e : IVec S2x5000000 32) : IVec S5500000 32 :=
  concatenate S5500000 0 [⟨S5000000, (shapeCast _ (extractStridedSlice S1x5000000 ![0, 0] e slices_S2x5000000_S1x5000000_0_0) shapeCasts_S1x5000000_S5000000)⟩, ⟨S500000, (iotaInDim S500000 32 0)⟩] concatenates_S5000000_S500000_S5500000_d0

/-- The destination of every edge of the extended list: row 1 of the edge list followed by `0, 1, …, 499999`. -/
def dstIdx (e : IVec S2x5000000 32) : IVec S5500000 32 :=
  concatenate S5500000 0 [⟨S5000000, (shapeCast _ (extractStridedSlice S1x5000000 ![1, 0] e slices_S2x5000000_S1x5000000_1_0) shapeCasts_S1x5000000_S5000000)⟩, ⟨S500000, (iotaInDim S500000 32 0)⟩] concatenates_S5000000_S500000_S5500000_d0

/-- A node index read as a signed integer, a negative one counting from the end: `i ↦ if i < 0 then i + 500000 else i`,
    entry by entry. -/
def wrapIdx (i : IVec S5500000 32) : IVec S5500000 32 :=
  select (cmpi .slt i (broadcastInDim S5500000 ![] bcast_S_S5500000 (constantI S_ 32 0#32))) (addi i (broadcastInDim S5500000 ![] bcast_S_S5500000 (constantI S_ 32 500000#32))) i

/-- The in-degree of each node in the extended edge list: starting from `0`, every edge adds `1` at its destination:
    `deg v = Σ_{e : d e = v} 1`. -/
def deg (d : IVec S5500000 32) : FVec Ideal S500000 .f32 :=
  Host.scatterAdd (F := Ideal) scatter_S500000_S5500000x1_S5500000_n_0_0_1 (broadcastInDim S500000 ![] bcast_S_S500000 (constant (F := Ideal) S_ .f32 0x00000000#32)) (broadcastInDim S5500000x1 ![0] bcast_S5500000_S5500000x1_0 d) (broadcastInDim S5500000 ![] bcast_S_S5500000 (constant (F := Ideal) S_ .f32 0x3F800000#32))

/-- `dinv v = 1 / √(deg v)` where `deg v > 0`, and `0` elsewhere. -/
def dinv (d : IVec S5500000 32) : FVec Ideal S500000 .f32 :=
  select (cmpf (F := Ideal) .ogt (deg d) (broadcastInDim S500000 ![] bcast_S_S500000 (constant (F := Ideal) S_ .f32 0x00000000#32))) (Host.rsqrt (F := Ideal) (deg d)) (broadcastInDim S500000 ![] bcast_S_S500000 (constant (F := Ideal) S_ .f32 0x00000000#32))

/-- The weight of each edge: `norm e = dinv (s e) · dinv (d e)`, the degrees being those of the destinations `d`. -/
def norm (s d : IVec S5500000 32) : FVec Ideal S5500000 .f32 :=
  mulf (F := Ideal) (Host.gather gather_S500000_S5500000x1_S5500000_n_0_n_n_0_1_1 (dinv d) (broadcastInDim S5500000x1 ![0] bcast_S5500000_S5500000x1_0 (wrapIdx s))) (Host.gather gather_S500000_S5500000x1_S5500000_n_0_n_n_0_1_1 (dinv d) (broadcastInDim S5500000x1 ![0] bcast_S5500000_S5500000x1_0 (wrapIdx d)))

/-- What both programs do with the index vectors `s` (sources), `d` (destinations), the transformed features `h`
    and the bias `b`: every edge `e` carries row `s e` of `h` scaled by `norm e` to node `d e`, where the
    contributions are summed from `0`; the bias is then added to every row:
    `tail s d h b v j = (Σ_{e : d e = v} norm s d e · h (s e) j) + b j`. -/
def tail (s d : IVec S5500000 32) (h : FVec Ideal S500000x8 .f32) (b : FVec Ideal S8 .f32) : FVec Ideal S500000x8 .f32 :=
  addf (F := Ideal) (Host.scatterAdd (F := Ideal) scatter_S500000x8_S5500000x1_S5500000x8_1_0_0_1 (broadcastInDim S500000x8 ![] bcast_S_S500000x8 (constant (F := Ideal) S_ .f32 0x00000000#32)) (broadcastInDim S5500000x1 ![0] bcast_S5500000_S5500000x1_0 d) (mulf (F := Ideal) (broadcastInDim S5500000x8 ![0, 1] bcast_S5500000x1_S5500000x8_0_1 (broadcastInDim S5500000x1 ![0] bcast_S5500000_S5500000x1_0 (norm s d))) (Host.gather gather_S500000x8_S5500000x1_S5500000x8_1_0_n_n_0_1_18 h (broadcastInDim S5500000x1 ![0] bcast_S5500000_S5500000x1_0 (wrapIdx s))))) (broadcastInDim S500000x8 ![0, 1] bcast_S1x8_S500000x8_0_1 (broadcastInDim S1x8 ![1] bcast_S8_S1x8_1 b))

end Cert.Spec
-- ==== Proof.SpecEq.lean ====
/-
  The shared graph-convolution operations spelt with the kernel program's constants and with the reference program's are
  one function.

  The two spellings apply the same operations in the same order; they differ only in which program's names they use for
  the shapes and for the gather and scatter dimension records. A shape is its list of extents and a record is its lists of
  axes (its remaining field is a proof), and these are the same lists under either name. So each operation of one spelling
  is the corresponding operation of the other: first the four records, then the functions from the innermost outwards,
  each by unfolding one level and replacing what it is built from by what has already been identified.
-/
import proofs.«129181_j16166256902666_2_alg».proof.Proof.Spec
import proofs.«129181_j16166256902666_2_alg».proof.Proof.SpecK

noncomputable section

namespace Cert.SpecEq

open Idealize.ShloMosaic

/-! ## The dimension records -/

/-- The scatter of one number per edge into the nodes: the same axes under either name. -/
theorem scatter1_eq : Cert.KernelIdeal.scatter_S500000_S5500000x1_S5500000_n_0_0_1
    = Cert.ReferenceIdeal.scatter_S500000_S5500000x1_S5500000_n_0_0_1 := rfl

/-- The gather of one number per edge from the nodes. -/
theorem gather1_eq : Cert.KernelIdeal.gather_S500000_S5500000x1_S5500000_n_0_n_n_0_1_1
    = Cert.ReferenceIdeal.gather_S500000_S5500000x1_S5500000_n_0_n_n_0_1_1 := rfl

/-- The gather of one row of eight per edge from the nodes' rows. -/
theorem gather8_eq : Cert.KernelIdeal.gather_S500000x8_S5500000x1_S5500000x8_1_0_n_n_0_1_18
    = Cert.ReferenceIdeal.gather_S500000x8_S5500000x1_S5500000x8_1_0_n_n_0_1_18 := rfl

/-- The scatter of one row of eight per edge into the nodes' rows. -/
theorem scatter8_eq : Cert.KernelIdeal.scatter_S500000x8_S5500000x1_S5500000x8_1_0_0_1
    = Cert.ReferenceIdeal.scatter_S500000x8_S5500000x1_S5500000x8_1_0_0_1 := rfl

/-! ## The functions, from the innermost outwards -/

/-- The sources of the extended edge list: a slice, a reshape and a concatenation with 0, 1, …, 499999, at the same
    shapes. -/
theorem srcIdx_eq (e : IVec Cert.KernelIdeal.S2x5000000 32) : Cert.SpecK.srcIdx e = Cert.Spec.srcIdx e := rfl

/-- The destinations likewise. -/
theorem dstIdx_eq (e : IVec Cert.KernelIdeal.S2x5000000 32) : Cert.SpecK.dstIdx e = Cert.Spec.dstIdx e := rfl

/-- An index read as a signed integer: a comparison, an addition and a choice, entry by entry. -/
theorem wrapIdx_eq (i : IVec Cert.KernelIdeal.S5500000 32) : Cert.SpecK.wrapIdx i = Cert.Spec.wrapIdx i := rfl

/-- The in-degree: the same scatter of ones from zero. -/
theorem deg_eq (d : IVec Cert.KernelIdeal.S5500000 32) : Cert.SpecK.deg d = Cert.Spec.deg d := by
  unfold Cert.SpecK.deg Cert.Spec.deg
  rw [scatter1_eq]

/-- 1 / √deg where deg is positive, 0 elsewhere: of the same in-degree. -/
theorem dinv_eq (d : IVec Cert.KernelIdeal.S5500000 32) : Cert.SpecK.dinv d = Cert.Spec.dinv d := by
  unfold Cert.SpecK.dinv Cert.Spec.dinv
  rw [deg_eq]

/-- The edge weights: the same two gathers of the same 1 / √deg at the same wrapped indices. -/
theorem norm_eq (s d : IVec Cert.KernelIdeal.S5500000 32) : Cert.SpecK.norm s d = Cert.Spec.norm s d := by
  unfold Cert.SpecK.norm Cert.Spec.norm
  rw [gather1_eq, dinv_eq, wrapIdx_eq, wrapIdx_eq]

/-- THE SHARED OPERATIONS ARE ONE FUNCTION: the same scatter of the same weighted gathered rows, plus the same bias. -/
theorem tail_eq (s d : IVec Cert.KernelIdeal.S5500000 32) (h : FVec Ideal Cert.KernelIdeal.S500000x8 .f32)
    (b : FVec Ideal Cert.KernelIdeal.S8 .f32) : Cert.SpecK.tail s d h b = Cert.Spec.tail s d h b := by
  unfold Cert.SpecK.tail Cert.Spec.tail
  rw [scatter8_eq, gather8_eq, norm_eq, wrapIdx_eq]

end Cert.SpecEq

end
-- ==== Proof.RefTail.lean ====
import proofs.«129181_j16166256902666_2_alg».proof.Proof.RefRun
import proofs.«129181_j16166256902666_2_alg».proof.Proof.Spec

/-!
# The reference's result is the shared graph convolution of its own linear transform

The reference's result buffer holds one composed term of the four arguments. That term is `Cert.Spec.tail` applied to
the extended source and destination index vectors of the edge list, to the product `x · Wᵀ` it computes with one
matrix product on the transposed weight, and to the bias: the two texts agree operation by operation.
-/

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
/-- The reference's composed result is `tail src dst (x · Wᵀ) bias`: unfolding both sides gives the same term. -/
theorem ref_result (m : (ℓ : Loc nD τ sig) → Buf (Elt Ideal) ℓ) (c : Dev nD) :
    Cert.ReferenceIdeal.ValueP.res_main_v48 (F := Ideal) m c
      = Cert.Spec.tail (Cert.Spec.srcIdx (m ((c.tc : Thread nD τ).loc main_arg1))) (Cert.Spec.dstIdx (m ((c.tc : Thread nD τ).loc main_arg1)))
          (Host.dotGeneral (F := Ideal) (φ₁ := .f32) (φ₂ := .f32) dot_S500000x16_S16x8_S500000x8_1_0_0_1_n_n none (m ((c.tc : Thread nD τ).loc main_arg0)) (transpose S16x8 [1, 0] (m ((c.tc : Thread nD τ).loc main_arg2)) transposes_S8x16_S16x8_1_0))
          (m ((c.tc : Thread nD τ).loc main_arg3)) := by
  unfold ValueP.res_main_v48 Cert.Spec.tail Cert.Spec.norm Cert.Spec.dinv Cert.Spec.deg Cert.Spec.wrapIdx Cert.Spec.srcIdx Cert.Spec.dstIdx
  rfl

end Cert.ReferenceIdeal.Hand
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.RefDot.lean ====
/-
  The reference's product, read at every index over the extended reals: it is the specification x · Wᵀ.

  The reference transposes the weight, [8, 16] → [16, 8], and takes the plain matrix product [500000, 16] × [16, 8] →
  [500000, 8] (the left operand contracted on axis 1, the right on axis 0). Entry (p, q) of a plain product is the sum
  over k of x (p, k) · Wᵀ (k, q), and the transposed weight at (k, q) is the weight at (q, k); so entry (p, q) is the
  sum over the sixteen input channels k of x (p, k) · W (q, k), which is the specification's entry (p, q).
-/
import proofs.«129181_j16166256902666_2_alg».proof.Proof.Gen.ReferenceIdeal
import proofs.«129181_j16166256902666_2_alg».proof.Proof.Lin
import proofs.«129181_j16166256902666_2_alg».proof.Proof.LibPlainDot
import Idealize.ShloMosaic.Lib.ValueIdx
import Idealize.ShloMosaic.Lib.ValueLayout
import Idealize.ShloMosaic.PureOps.Ideal.Laws

noncomputable section

open scoped BigOperators

namespace Cert.ReferenceIdeal.Hand

open Idealize.ShloMosaic Idealize.ShloMosaic.ValueIdx Cert.ReferenceIdeal
open Cert.ReferenceIdeal.Facts₀

/-- THE REFERENCE'S PRODUCT IS x · Wᵀ. At (p, q) the plain product against the transposed weight is the sum over k of
x (p, k) · Wᵀ (k, q), and Wᵀ (k, q) = W (q, k). -/
theorem ref_lin (x : Vec Ideal S500000x16 .f32) (W : Vec Ideal S8x16 .f32) :
    Host.dotGeneral (F := Ideal) (φ₁ := .f32) (φ₂ := .f32) dot_S500000x16_S16x8_S500000x8_1_0_0_1_n_n none x
        (transpose S16x8 [1, 0] W transposes_S8x16_S16x8_1_0) = Cert.Lin.lin x W := by
  funext j
  -- the index by its two coordinates, a row p of the 500000 and a column q of the 8
  obtain ⟨p, q, rfl⟩ : ∃ (p : Fin 500000) (q : Fin 8), j = ix2 p q := ⟨j 0, j 1, eq_ix2 j⟩
  rw [Cert.Lin.lin_ix2]
  unfold Cert.Lin.linAt
  -- the plain product at (p, q): the sum over k of x (p, k) · Wᵀ (k, q)
  refine (Cert.PlainDot.dotGeneral_apply (M := 500000) (K := 16) (N := 8) (φ₁ := .f32) (φ₂ := .f32)
    dot_S500000x16_S16x8_S500000x8_1_0_0_1_n_n rfl rfl rfl rfl rfl rfl none .single x
    (transpose S16x8 [1, 0] W transposes_S8x16_S16x8_1_0) p q).trans ?_
  -- term by term, Wᵀ (k, q) = W (q, k)
  refine Finset.sum_congr rfl fun k _ => ?_
  exact congrArg (x (ix2 p k) * ·)
    (transpose_ix2_apply (a := 8) (b := 16) W transposes_S8x16_S16x8_1_0 k q)

end Cert.ReferenceIdeal.Hand

end
-- ==== Proof.lean ====
/-
  The certificate: a degree-normalised graph convolution whose linear transform h = x · Wᵀ runs as a pallas_call, against
  the same convolution written in plain array operations.

  Both programs extend the edge list by one self loop per node, count the in-degree of every node, weigh edge e by
  1/√deg(src e) · 1/√deg(dst e), carry row (src e) of h scaled by that weight to node (dst e), sum there, and add the bias.
  They differ only in how h is formed: the kernel multiplies each block of 16384 rows of x against the rows of W on the
  matrix unit (rounding both to bf16 first, which over the extended reals is the identity), the last block overhanging the
  array by 7904 rows; the reference transposes W and takes one plain product.  Over the extended reals both give
  h (p, q) = Σ_k x (p, k) · W (q, k), an entry that reads row p of x only — which is why the words the last block's staging
  buffer holds past the array's end never reach a row that is written back.  With h equal, the shared operations are applied
  to equal arguments, so the results are equal; they are never opened.

  The three frames: the word-level kernel program's says nothing of the result, so its result window is forgotten; the
  idealized kernel program's is read off the run that also names its result; the reference's is its run with the result
  dropped.  The ideal pass rewrote nothing, so the idealization claim is the trivial one.
-/
import proofs.«129181_j16166256902666_2_alg».proof.Defs
import proofs.«129181_j16166256902666_2_alg».proof.Proof.Gen.Kernel
import proofs.«129181_j16166256902666_2_alg».proof.Proof.Gen.KernelIdeal
import proofs.«129181_j16166256902666_2_alg».proof.Proof.Gen.ReferenceIdeal
import proofs.«129181_j16166256902666_2_alg».proof.Proof.Gen.Pre_finite_inputs
import proofs.«129181_j16166256902666_2_alg».proof.Proof.KFrame
import proofs.«129181_j16166256902666_2_alg».proof.Proof.IBody
import proofs.«129181_j16166256902666_2_alg».proof.Proof.IValue
import proofs.«129181_j16166256902666_2_alg».proof.Proof.KTail
import proofs.«129181_j16166256902666_2_alg».proof.Proof.SpecEq
import proofs.«129181_j16166256902666_2_alg».proof.Proof.RefRun
import proofs.«129181_j16166256902666_2_alg».proof.Proof.RefTail
import proofs.«129181_j16166256902666_2_alg».proof.Proof.RefDot
import Idealize.ShloMosaic.Adequacy
import Idealize.ShloMosaic.Init

noncomputable section

namespace Cert.Proof

open Idealize.ShloMosaic Idealize.ShloMosaic.TcCoe Idealize.SL.Sem

/-! ## The idealized kernel program's run, with its result named -/

section KernelRun

open Cert.KernelIdeal Cert.KernelIdeal.Gen Cert.KernelIdeal.Hand

/-- What both programs end with, from the kernel program's argument arrays on core c: the shared operations applied to the
    two index vectors, to x · Wᵀ and to the bias. -/
def result (m : (ℓ : Loc nD τ sig) → Buf (Elt Ideal) ℓ) (c : Dev nD) : Buf (Elt Ideal) ((c.tc : Thread nD τ).loc main_v47) :=
  Cert.Spec.tail (Cert.Spec.srcIdx (m ((c.tc : Thread nD τ).loc main_arg1))) (Cert.Spec.dstIdx (m ((c.tc : Thread nD τ).loc main_arg1)))
    (Cert.Lin.lin (m ((c.tc : Thread nD τ).loc main_arg0)) (m ((c.tc : Thread nD τ).loc main_arg2)))
    (m ((c.tc : Thread nD τ).loc main_arg3))

/-- Every weakly fair execution of the idealized kernel program terminates with its result at `result` and its four
    argument arrays as launched: the region leaves x · Wᵀ in its array, and the lines after it are the shared operations. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v47 (Pipeline.mem_restRefs_of main_v47 (by decide) (by decide))).trans
        ((kernel_tail_K m (dats m) c).trans (by
          unfold result
          rw [Cert.SpecEq.tail_eq, Cert.SpecEq.srcIdx_eq, Cert.SpecEq.dstIdx_eq, final2 m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end KernelRun

/-! ## The claims -/

theorem frame_k : Cert.frame_Kernel := fun m ρ _ => Cert.Kernel.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end with `result` of the kernel program's arguments: the
    kernel program by its run; the reference because its composed term is the shared operations applied to its own product,
    which is x · Wᵀ too, of arguments that are the kernel program's. -/
theorem algebraic : Cert.algebraic_KernelIdeal_ReferenceIdeal := by
  intro m ρ m' ρ' _ hagree
  refine ⟨fun c => result m c, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Hand.ref_result, Cert.ReferenceIdeal.Hand.ref_lin, (hagree c).1, (hagree c).2.1, (hagree c).2.2.1,
    (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
